-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S3072x1024 : Shape := ⟨2, ![3072, 1024]⟩
abbrev S1024x1024 : Shape := ⟨2, ![1024, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x1024x1024 .f32) (main_arg1 : FVec F S3072x1024 .f32) (main_arg2 : FVec F S1024x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8x1024x1024 : Shape := ⟨3, ![8, 1024, 1024]⟩
abbrev S3072x1024 : Shape := ⟨2, ![3072, 1024]⟩
abbrev S1024x1024 : Shape := ⟨2, ![1024, 1024]⟩
abbrev S_ : Shape := ⟨0, ![]⟩
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S8x1024x3x16x64 : Shape := ⟨5, ![8, 1024, 3, 16, 64]⟩
abbrev S3x8x16x1024x64 : Shape := ⟨5, ![3, 8, 16, 1024, 64]⟩
abbrev S1x8x16x1024x64 : Shape := ⟨5, ![1, 8, 16, 1024, 64]⟩
abbrev S8x16x1024x64 : Shape := ⟨4, ![8, 16, 1024, 64]⟩
abbrev S1x1x1024x64 : Shape := ⟨4, ![1, 1, 1024, 64]⟩
abbrev S1024x64 : Shape := ⟨2, ![1024, 64]⟩
abbrev S1024 : Shape := ⟨1, ![1024]⟩
abbrev S1024x1 : Shape := ⟨2, ![1024, 1]⟩
abbrev S8x1024x16x64 : Shape := ⟨4, ![8, 1024, 16, 64]⟩

abbrev nBuf : Space → Nat
  | .hbm => 181
  | .vmem => 19
  | .smem => 0
  | _ => 0

abbrev hbmTy0_0 (i : Nat) : BufTy := match i % 128 with
  | 0 => ⟨S8x1024x1024, .f32⟩
  | 1 => ⟨S3072x1024, .f32⟩
  | 2 => ⟨S1024x1024, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S8x1024x1024, .f32⟩
  | 27 => ⟨S8x1024x1024, .f32⟩
  | 28 => ⟨S8x1024x1024, .f32⟩
  | 29 => ⟨S8x1024x1024, .f32⟩
  | 30 => ⟨S8x1024x1024, .f32⟩
  | 31 => ⟨S_, .f32⟩
  | 32 => ⟨S_, .f32⟩
  | 33 => ⟨S_, .f32⟩
  | 34 => ⟨S8x1024x1024, .f32⟩
  | 35 => ⟨S8x1024x1024, .f32⟩
  | 36 => ⟨S_, .f32⟩
  | 37 => ⟨S8x1024x1024, .f32⟩
  | 38 => ⟨S8x1024x1024, .f32⟩
  | 39 => ⟨S8x1024x1024, .f32⟩
  | 40 => ⟨S8x1024x1024, .f32⟩
  | 41 => ⟨S8x1024x1024, .f32⟩
  | 42 => ⟨S8x1024x1024, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S3072x1024, .f32⟩
  | 67 => ⟨S3072x1024, .f32⟩
  | 68 => ⟨S3072x1024, .f32⟩
  | 69 => ⟨S3072x1024, .f32⟩
  | 70 => ⟨S3072x1024, .f32⟩
  | 71 => ⟨S_, .f32⟩
  | 72 => ⟨S_, .f32⟩
  | 73 => ⟨S_, .f32⟩
  | 74 => ⟨S3072x1024, .f32⟩
  | 75 => ⟨S3072x1024, .f32⟩
  | 76 => ⟨S_, .f32⟩
  | 77 => ⟨S3072x1024, .f32⟩
  | 78 => ⟨S3072x1024, .f32⟩
  | 79 => ⟨S3072x1024, .f32⟩
  | 80 => ⟨S3072x1024, .f32⟩
  | 81 => ⟨S3072x1024, .f32⟩
  | 82 => ⟨S3072x1024, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S1024x1024, .f32⟩
  | 107 => ⟨S1024x1024, .f32⟩
  | 108 => ⟨S1024x1024, .f32⟩
  | 109 => ⟨S1024x1024, .f32⟩
  | 110 => ⟨S1024x1024, .f32⟩
  | 111 => ⟨S_, .f32⟩
  | 112 => ⟨S_, .f32⟩
  | 113 => ⟨S_, .f32⟩
  | 114 => ⟨S1024x1024, .f32⟩
  | 115 => ⟨S1024x1024, .f32⟩
  | 116 => ⟨S_, .f32⟩
  | 117 => ⟨S1024x1024, .f32⟩
  | 118 => ⟨S1024x1024, .f32⟩
  | 119 => ⟨S1024x1024, .f32⟩
  | 120 => ⟨S1024x1024, .f32⟩
  | 121 => ⟨S1024x1024, .f32⟩
  | 122 => ⟨S1024x1024, .f32⟩
  | 123 => ⟨S8192x1024, .f32⟩
  | 124 => ⟨S1024x3072, .f32⟩
  | 125 => ⟨S8192x3072, .bf16⟩
  | 126 => ⟨S8x1024x3x16x64, .bf16⟩
  | 127 => ⟨S3x8x16x1024x64, .bf16⟩
  | _ => ⟨S8x1024x1024, .f32⟩

abbrev hbmTy0_1 (i : Nat) : BufTy := match i % 128 with
  | 0 => ⟨S1x8x16x1024x64, .bf16⟩
  | 1 => ⟨S8x16x1024x64, .bf16⟩
  | 2 => ⟨S1x8x16x1024x64, .bf16⟩
  | 3 => ⟨S8x16x1024x64, .bf16⟩
  | 4 => ⟨S1x8x16x1024x64, .bf16⟩
  | 5 => ⟨S8x16x1024x64, .bf16⟩
  | 6 => ⟨S8x16x1024x64, .f32⟩
  | 7 => ⟨S8x1024x16x64, .f32⟩
  | 8 => ⟨S8x1024x1024, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S8x1024x1024, .f32⟩
  | 33 => ⟨S8x1024x1024, .f32⟩
  | 34 => ⟨S8x1024x1024, .f32⟩
  | 35 => ⟨S8x1024x1024, .f32⟩
  | 36 => ⟨S8x1024x1024, .f32⟩
  | 37 => ⟨S_, .f32⟩
  | 38 => ⟨S_, .f32⟩
  | 39 => ⟨S_, .f32⟩
  | 40 => ⟨S8x1024x1024, .f32⟩
  | 41 => ⟨S8x1024x1024, .f32⟩
  | 42 => ⟨S_, .f32⟩
  | 43 => ⟨S8x1024x1024, .f32⟩
  | 44 => ⟨S8x1024x1024, .f32⟩
  | 45 => ⟨S8x1024x1024, .f32⟩
  | 46 => ⟨S8x1024x1024, .f32⟩
  | 47 => ⟨S8x1024x1024, .f32⟩
  | 48 => ⟨S8x1024x1024, .f32⟩
  | 49 => ⟨S8192x1024, .f32⟩
  | 50 => ⟨S1024x1024, .f32⟩
  | 51 => ⟨S8192x1024, .f32⟩
  | 52 => ⟨S8x1024x1024, .f32⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S1x1x1024x64, .bf16⟩
  | .local _ .vmem, ⟨7, _⟩ => ⟨S1x1x1024x64, .bf16⟩
  | .local _ .vmem, ⟨8, _⟩ => ⟨S1x1x1024x64, .bf16⟩
  | .local _ .vmem, ⟨9, _⟩ => ⟨S1x1x1024x64, .bf16⟩
  | .local _ .vmem, ⟨10, _⟩ => ⟨S1x1x1024x64, .bf16⟩
  | .local _ .vmem, ⟨11, _⟩ => ⟨S1x1x1024x64, .bf16⟩
  | .local _ .vmem, ⟨12, _⟩ => ⟨S1x1x1024x64, .f32⟩
  | .local _ .vmem, ⟨13, _⟩ => ⟨S1x1x1024x64, .f32⟩
  | .local _ .vmem, ⟨14, _⟩ => ⟨S512x1024, .f32⟩
  | .local _ .vmem, ⟨15, _⟩ => ⟨S512x1024, .f32⟩
  | .local _ .vmem, ⟨16, _⟩ => ⟨S1024x1024, .f32⟩
  | .local _ .vmem, ⟨17, _⟩ => ⟨S512x1024, .f32⟩
  | .local _ .vmem, ⟨18, _⟩ => ⟨S512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_cst_4 : Ref sig .tc := ⟨.hbm, 14, rfl⟩
abbrev main_v6 : Ref sig .tc := ⟨.hbm, 15, rfl⟩
abbrev main_v7 : Ref sig .tc := ⟨.hbm, 16, rfl⟩
abbrev main_cst_5 : Ref sig .tc := ⟨.hbm, 17, rfl⟩
abbrev main_v8 : Ref sig .tc := ⟨.hbm, 18, rfl⟩
abbrev main_v9 : Ref sig .tc := ⟨.hbm, 19, rfl⟩
abbrev main_cst_6 : Ref sig .tc := ⟨.hbm, 20, rfl⟩
abbrev main_cst_7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_8 : Ref sig .tc := ⟨.hbm, 31, rfl⟩
abbrev main_cst_9 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_10 : Ref sig .tc := ⟨.hbm, 43, rfl⟩
abbrev main_v21 : Ref sig .tc := ⟨.hbm, 44, rfl⟩
abbrev main_cst_11 : Ref sig .tc := ⟨.hbm, 45, rfl⟩
abbrev main_v22 : Ref sig .tc := ⟨.hbm, 46, rfl⟩
abbrev main_cst_12 : Ref sig .tc := ⟨.hbm, 47, rfl⟩
abbrev main_v23 : Ref sig .tc := ⟨.hbm, 48, rfl⟩
abbrev main_cst_13 : Ref sig .tc := ⟨.hbm, 49, rfl⟩
abbrev main_v24 : Ref sig .tc := ⟨.hbm, 50, rfl⟩
abbrev main_v25 : Ref sig .tc := ⟨.hbm, 51, rfl⟩
abbrev main_cst_14 : Ref sig .tc := ⟨.hbm, 52, rfl⟩
abbrev main_v26 : Ref sig .tc := ⟨.hbm, 53, rfl⟩
abbrev main_cst_15 : Ref sig .tc := ⟨.hbm, 54, rfl⟩
abbrev main_v27 : Ref sig .tc := ⟨.hbm, 55, rfl⟩
abbrev main_v28 : Ref sig .tc := ⟨.hbm, 56, rfl⟩
abbrev main_cst_16 : Ref sig .tc := ⟨.hbm, 57, rfl⟩
abbrev main_v29 : Ref sig .tc := ⟨.hbm, 58, rfl⟩
abbrev main_v30 : Ref sig .tc := ⟨.hbm, 59, rfl⟩
abbrev main_cst_17 : Ref sig .tc := ⟨.hbm, 60, rfl⟩
abbrev main_cst_18 : Ref sig .tc := ⟨.hbm, 61, rfl⟩
abbrev main_call5_v0 : Ref sig .tc := ⟨.hbm, 62, rfl⟩
abbrev main_call5_v1 : Ref sig .tc := ⟨.hbm, 63, rfl⟩
abbrev main_call5_v2 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_19 : Ref sig .tc := ⟨.hbm, 71, rfl⟩
abbrev main_cst_20 : Ref sig .tc := ⟨.hbm, 72, rfl⟩
abbrev main_call7_v0 : Ref sig .tc := ⟨.hbm, 73, rfl⟩
abbrev main_call7_v1 : Ref sig .tc := ⟨.hbm, 74, rfl⟩
abbrev main_call7_v2 : Ref sig .tc := ⟨.hbm, 75, rfl⟩
abbrev main_call7_v3 : Ref sig .tc := ⟨.hbm, 76, rfl⟩
abbrev main_call7_v4 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_21 : Ref sig .tc := ⟨.hbm, 83, rfl⟩
abbrev main_v42 : Ref sig .tc := ⟨.hbm, 84, rfl⟩
abbrev main_cst_22 : Ref sig .tc := ⟨.hbm, 85, rfl⟩
abbrev main_v43 : Ref sig .tc := ⟨.hbm, 86, rfl⟩
abbrev main_cst_23 : Ref sig .tc := ⟨.hbm, 87, rfl⟩
abbrev main_v44 : Ref sig .tc := ⟨.hbm, 88, rfl⟩
abbrev main_cst_24 : Ref sig .tc := ⟨.hbm, 89, rfl⟩
abbrev main_v45 : Ref sig .tc := ⟨.hbm, 90, rfl⟩
abbrev main_v46 : Ref sig .tc := ⟨.hbm, 91, rfl⟩
abbrev main_cst_25 : Ref sig .tc := ⟨.hbm, 92, rfl⟩
abbrev main_v47 : Ref sig .tc := ⟨.hbm, 93, rfl⟩
abbrev main_cst_26 : Ref sig .tc := ⟨.hbm, 94, rfl⟩
abbrev main_v48 : Ref sig .tc := ⟨.hbm, 95, rfl⟩
abbrev main_v49 : Ref sig .tc := ⟨.hbm, 96, rfl⟩
abbrev main_cst_27 : Ref sig .tc := ⟨.hbm, 97, rfl⟩
abbrev main_v50 : Ref sig .tc := ⟨.hbm, 98, rfl⟩
abbrev main_v51 : Ref sig .tc := ⟨.hbm, 99, rfl⟩
abbrev main_cst_28 : Ref sig .tc := ⟨.hbm, 100, rfl⟩
abbrev main_cst_29 : Ref sig .tc := ⟨.hbm, 101, rfl⟩
abbrev main_call9_v0 : Ref sig .tc := ⟨.hbm, 102, rfl⟩
abbrev main_call9_v1 : Ref sig .tc := ⟨.hbm, 103, rfl⟩
abbrev main_call9_v2 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_30 : Ref sig .tc := ⟨.hbm, 111, rfl⟩
abbrev main_cst_31 : Ref sig .tc := ⟨.hbm, 112, rfl⟩
abbrev main_call11_v0 : Ref sig .tc := ⟨.hbm, 113, rfl⟩
abbrev main_call11_v1 : Ref sig .tc := ⟨.hbm, 114, rfl⟩
abbrev main_call11_v2 : Ref sig .tc := ⟨.hbm, 115, rfl⟩
abbrev main_call11_v3 : Ref sig .tc := ⟨.hbm, 116, rfl⟩
abbrev main_call11_v4 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_cst_32 : Ref sig .tc := ⟨.hbm, 137, rfl⟩
abbrev main_v77 : Ref sig .tc := ⟨.hbm, 138, rfl⟩
abbrev main_cst_33 : Ref sig .tc := ⟨.hbm, 139, rfl⟩
abbrev main_v78 : Ref sig .tc := ⟨.hbm, 140, rfl⟩
abbrev main_cst_34 : Ref sig .tc := ⟨.hbm, 141, rfl⟩
abbrev main_v79 : Ref sig .tc := ⟨.hbm, 142, rfl⟩
abbrev main_cst_35 : Ref sig .tc := ⟨.hbm, 143, rfl⟩
abbrev main_v80 : Ref sig .tc := ⟨.hbm, 144, rfl⟩
abbrev main_v81 : Ref sig .tc := ⟨.hbm, 145, rfl⟩
abbrev main_cst_36 : Ref sig .tc := ⟨.hbm, 146, rfl⟩
abbrev main_v82 : Ref sig .tc := ⟨.hbm, 147, rfl⟩
abbrev main_cst_37 : Ref sig .tc := ⟨.hbm, 148, rfl⟩
abbrev main_v83 : Ref sig .tc := ⟨.hbm, 149, rfl⟩
abbrev main_v84 : Ref sig .tc := ⟨.hbm, 150, rfl⟩
abbrev main_cst_38 : Ref sig .tc := ⟨.hbm, 151, rfl⟩
abbrev main_v85 : Ref sig .tc := ⟨.hbm, 152, rfl⟩
abbrev main_v86 : Ref sig .tc := ⟨.hbm, 153, rfl⟩
abbrev main_cst_39 : Ref sig .tc := ⟨.hbm, 154, rfl⟩
abbrev main_cst_40 : Ref sig .tc := ⟨.hbm, 155, rfl⟩
abbrev main_call13_v0 : Ref sig .tc := ⟨.hbm, 156, rfl⟩
abbrev main_call13_v1 : Ref sig .tc := ⟨.hbm, 157, rfl⟩
abbrev main_call13_v2 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_cst_41 : Ref sig .tc := ⟨.hbm, 165, rfl⟩
abbrev main_cst_42 : Ref sig .tc := ⟨.hbm, 166, rfl⟩
abbrev main_call15_v0 : Ref sig .tc := ⟨.hbm, 167, rfl⟩
abbrev main_call15_v1 : Ref sig .tc := ⟨.hbm, 168, rfl⟩
abbrev main_call15_v2 : Ref sig .tc := ⟨.hbm, 169, rfl⟩
abbrev main_call15_v3 : Ref sig .tc := ⟨.hbm, 170, rfl⟩
abbrev main_call15_v4 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  reducesTo_S8x1024x1024_S_d0_1_2 : S8x1024x1024.ReducesTo [0, 1, 2] S_
  h_S_ : 0 < S_.numel
  bcast_S_S8x1024x1024 : S_.BroadcastsInDim S8x1024x1024 (![] : Fin 0 → Fin S8x1024x1024.rank)
  reducesTo_S3072x1024_S_d0_1 : S3072x1024.ReducesTo [0, 1] S_
  bcast_S_S3072x1024 : S_.BroadcastsInDim S3072x1024 (![] : Fin 0 → Fin S3072x1024.rank)
  reducesTo_S1024x1024_S_d0_1 : S1024x1024.ReducesTo [0, 1] S_
  bcast_S_S1024x1024 : S_.BroadcastsInDim S1024x1024 (![] : Fin 0 → Fin S1024x1024.rank)
  shapeCasts_S8x1024x1024_S8192x1024 : S8x1024x1024.ShapeCasts S8192x1024
  transposes_S3072x1024_S1024x3072_1_0 : S3072x1024.Transposes [1, 0] S1024x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x3072_S8x1024x3x16x64 : S8192x3072.ShapeCasts S8x1024x3x16x64
  transposes_S8x1024x3x16x64_S3x8x16x1024x64_2_0_3_1_4 : S8x1024x3x16x64.Transposes [2, 0, 3, 1, 4] S3x8x16x1024x64
  slices_S3x8x16x1024x64_S1x8x16x1024x64_0_0_0_0_0 : S3x8x16x1024x64.Slices ![0, 0, 0, 0, 0] S1x8x16x1024x64
  shapeCasts_S1x8x16x1024x64_S8x16x1024x64 : S1x8x16x1024x64.ShapeCasts S8x16x1024x64
  slices_S3x8x16x1024x64_S1x8x16x1024x64_1_0_0_0_0 : S3x8x16x1024x64.Slices ![1, 0, 0, 0, 0] S1x8x16x1024x64
  slices_S3x8x16x1024x64_S1x8x16x1024x64_2_0_0_0_0 : S3x8x16x1024x64.Slices ![2, 0, 0, 0, 0] S1x8x16x1024x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1x1024x64 : S1024x64.ShapeCasts S1x1x1024x64
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  transposes_S1024x1024_S1024x1024_1_0 : S1024x1024.Transposes [1, 0] S1024x1024
  shapeCasts_S8192x1024_S8x1024x1024 : S8192x1024.ShapeCasts S8x1024x1024
  dot_S512x1024_S1024x1024_S512x1024_1_0_0_1_n_n_wf : DotDims.WF S512x1024 S1024x1024 S512x1024 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x3072.size a
  hwx0_2 : ∀ i : grid0.Coords, EltTy.bits .bf16 = 32 ∨ (Rect.block (s := S8192x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S8x16x1024x64.size a
  hwx1_0 : ∀ i : grid1.Coords, EltTy.bits .bf16 = 32 ∨ (Rect.block (s := S8x16x1024x64) S1x1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S8x16x1024x64.size a
  hwx1_1 : ∀ i : grid1.Coords, EltTy.bits .bf16 = 32 ∨ (Rect.block (s := S8x16x1024x64) S1x1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x64.size a ≤ S8x16x1024x64.size a
  hwx1_2 : ∀ i : grid1.Coords, EltTy.bits .bf16 = 32 ∨ (Rect.block (s := S8x16x1024x64) S1x1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024x64.size a ≤ S8x16x1024x64.size a
  hwx1_3 : ∀ i : grid1.Coords, EltTy.bits .f32 = 32 ∨ (Rect.block (s := S8x16x1024x64) S1x1x1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S8192x1024.size a
  hwx2_2 : ∀ i : grid2.Coords, EltTy.bits .f32 = 32 ∨ (Rect.block (s := S8192x1024) S512x1024.size (cc2_transform_2 i) (hinb2_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v63) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v65) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v69) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v73) S1x1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v74) S1x1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v98) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v99) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v100) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S3072x1024 : Shape := ⟨2, ![3072, 1024]⟩
abbrev S1024x1024 : Shape := ⟨2, ![1024, 1024]⟩
abbrev S_ : Shape := ⟨0, ![]⟩
abbrev S8x1024x3072 : Shape := ⟨3, ![8, 1024, 3072]⟩
abbrev S8x1024x3x16x64 : Shape := ⟨5, ![8, 1024, 3, 16, 64]⟩
abbrev S3x8x16x1024x64 : Shape := ⟨5, ![3, 8, 16, 1024, 64]⟩
abbrev S1x8x16x1024x64 : Shape := ⟨5, ![1, 8, 16, 1024, 64]⟩
abbrev S8x16x1024x64 : Shape := ⟨4, ![8, 16, 1024, 64]⟩
abbrev S8x16x1024x1024 : Shape := ⟨4, ![8, 16, 1024, 1024]⟩
abbrev S8x16x1024 : Shape := ⟨3, ![8, 16, 1024]⟩
abbrev S8x16x1024x1 : Shape := ⟨4, ![8, 16, 1024, 1]⟩
abbrev S8x1024x16x64 : Shape := ⟨4, ![8, 1024, 16, 64]⟩

abbrev nBuf : Space → Nat
  | .hbm => 194
  | .vmem => 0
  | .smem => 0
  | _ => 0

abbrev hbmTy0_0 (i : Nat) : BufTy := match i % 128 with
  | 0 => ⟨S8x1024x1024, .f32⟩
  | 1 => ⟨S3072x1024, .f32⟩
  | 2 => ⟨S1024x1024, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S8x1024x1024, .f32⟩
  | 27 => ⟨S8x1024x1024, .f32⟩
  | 28 => ⟨S8x1024x1024, .f32⟩
  | 29 => ⟨S8x1024x1024, .f32⟩
  | 30 => ⟨S8x1024x1024, .f32⟩
  | 31 => ⟨S_, .f32⟩
  | 32 => ⟨S_, .f32⟩
  | 33 => ⟨S_, .f32⟩
  | 34 => ⟨S8x1024x1024, .f32⟩
  | 35 => ⟨S8x1024x1024, .f32⟩
  | 36 => ⟨S_, .f32⟩
  | 37 => ⟨S8x1024x1024, .f32⟩
  | 38 => ⟨S8x1024x1024, .f32⟩
  | 39 => ⟨S8x1024x1024, .f32⟩
  | 40 => ⟨S8x1024x1024, .f32⟩
  | 41 => ⟨S8x1024x1024, .f32⟩
  | 42 => ⟨S8x1024x1024, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S3072x1024, .f32⟩
  | 67 => ⟨S3072x1024, .f32⟩
  | 68 => ⟨S3072x1024, .f32⟩
  | 69 => ⟨S3072x1024, .f32⟩
  | 70 => ⟨S3072x1024, .f32⟩
  | 71 => ⟨S_, .f32⟩
  | 72 => ⟨S_, .f32⟩
  | 73 => ⟨S_, .f32⟩
  | 74 => ⟨S3072x1024, .f32⟩
  | 75 => ⟨S3072x1024, .f32⟩
  | 76 => ⟨S_, .f32⟩
  | 77 => ⟨S3072x1024, .f32⟩
  | 78 => ⟨S3072x1024, .f32⟩
  | 79 => ⟨S3072x1024, .f32⟩
  | 80 => ⟨S3072x1024, .f32⟩
  | 81 => ⟨S3072x1024, .f32⟩
  | 82 => ⟨S3072x1024, .f32⟩
  | 83 => ⟨S8x1024x3072, .f32⟩
  | 84 => ⟨S8x1024x3x16x64, .f32⟩
  | 85 => ⟨S3x8x16x1024x64, .f32⟩
  | 86 => ⟨S1x8x16x1024x64, .f32⟩
  | 87 => ⟨S8x16x1024x64, .f32⟩
  | 88 => ⟨S1x8x16x1024x64, .f32⟩
  | 89 => ⟨S8x16x1024x64, .f32⟩
  | 90 => ⟨S1x8x16x1024x64, .f32⟩
  | 91 => ⟨S8x16x1024x64, .f32⟩
  | 92 => ⟨S8x16x1024x1024, .f32⟩
  | 93 => ⟨S_, .f32⟩
  | 94 => ⟨S8x16x1024x1024, .f32⟩
  | 95 => ⟨S8x16x1024x1024, .f32⟩
  | 96 => ⟨S_, .f32⟩
  | 97 => ⟨S8x16x1024, .f32⟩
  | 98 => ⟨S_, .f32⟩
  | 99 => ⟨S8x16x1024, .f32⟩
  | 100 => ⟨S8x16x1024, .f32⟩
  | 101 => ⟨S8x16x1024x1, .f32⟩
  | 102 => ⟨S8x16x1024x1024, .f32⟩
  | 103 => ⟨S8x16x1024x1024, .f32⟩
  | 104 => ⟨S8x16x1024x1024, .f32⟩
  | 105 => ⟨S_, .f32⟩
  | 106 => ⟨S8x16x1024, .f32⟩
  | 107 => ⟨S8x16x1024x1, .f32⟩
  | 108 => ⟨S8x16x1024x1024, .f32⟩
  | 109 => ⟨S8x16x1024x1024, .f32⟩
  | 110 => ⟨S8x16x1024x64, .f32⟩
  | 111 => ⟨S8x1024x16x64, .f32⟩
  | 112 => ⟨S8x1024x1024, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x1024x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S8x1024x1024, .f32⟩
  | 9 => ⟨S8x1024x1024, .f32⟩
  | 10 => ⟨S8x1024x1024, .f32⟩
  | 11 => ⟨S8x1024x1024, .f32⟩
  | 12 => ⟨S8x1024x1024, .f32⟩
  | 13 => ⟨S_, .f32⟩
  | 14 => ⟨S_, .f32⟩
  | 15 => ⟨S_, .f32⟩
  | 16 => ⟨S8x1024x1024, .f32⟩
  | 17 => ⟨S8x1024x1024, .f32⟩
  | 18 => ⟨S_, .f32⟩
  | 19 => ⟨S8x1024x1024, .f32⟩
  | 20 => ⟨S8x1024x1024, .f32⟩
  | 21 => ⟨S8x1024x1024, .f32⟩
  | 22 => ⟨S8x1024x1024, .f32⟩
  | 23 => ⟨S8x1024x1024, .f32⟩
  | 24 => ⟨S8x1024x1024, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S1024x1024, .f32⟩
  | 49 => ⟨S1024x1024, .f32⟩
  | 50 => ⟨S1024x1024, .f32⟩
  | 51 => ⟨S1024x1024, .f32⟩
  | 52 => ⟨S1024x1024, .f32⟩
  | 53 => ⟨S_, .f32⟩
  | 54 => ⟨S_, .f32⟩
  | 55 => ⟨S_, .f32⟩
  | 56 => ⟨S1024x1024, .f32⟩
  | 57 => ⟨S1024x1024, .f32⟩
  | 58 => ⟨S_, .f32⟩
  | 59 => ⟨S1024x1024, .f32⟩
  | 60 => ⟨S1024x1024, .f32⟩
  | 61 => ⟨S1024x1024, .f32⟩
  | 62 => ⟨S1024x1024, .f32⟩
  | 63 => ⟨S1024x1024, .f32⟩
  | 64 => ⟨S1024x1024, .f32⟩
  | 65 => ⟨S8x1024x1024, .f32⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_cst_4 : Ref sig .tc := ⟨.hbm, 14, rfl⟩
abbrev main_v6 : Ref sig .tc := ⟨.hbm, 15, rfl⟩
abbrev main_v7 : Ref sig .tc := ⟨.hbm, 16, rfl⟩
abbrev main_cst_5 : Ref sig .tc := ⟨.hbm, 17, rfl⟩
abbrev main_v8 : Ref sig .tc := ⟨.hbm, 18, rfl⟩
abbrev main_v9 : Ref sig .tc := ⟨.hbm, 19, rfl⟩
abbrev main_cst_6 : Ref sig .tc := ⟨.hbm, 20, rfl⟩
abbrev main_cst_7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_8 : Ref sig .tc := ⟨.hbm, 31, rfl⟩
abbrev main_cst_9 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_10 : Ref sig .tc := ⟨.hbm, 43, rfl⟩
abbrev main_v21 : Ref sig .tc := ⟨.hbm, 44, rfl⟩
abbrev main_cst_11 : Ref sig .tc := ⟨.hbm, 45, rfl⟩
abbrev main_v22 : Ref sig .tc := ⟨.hbm, 46, rfl⟩
abbrev main_cst_12 : Ref sig .tc := ⟨.hbm, 47, rfl⟩
abbrev main_v23 : Ref sig .tc := ⟨.hbm, 48, rfl⟩
abbrev main_cst_13 : Ref sig .tc := ⟨.hbm, 49, rfl⟩
abbrev main_v24 : Ref sig .tc := ⟨.hbm, 50, rfl⟩
abbrev main_v25 : Ref sig .tc := ⟨.hbm, 51, rfl⟩
abbrev main_cst_14 : Ref sig .tc := ⟨.hbm, 52, rfl⟩
abbrev main_v26 : Ref sig .tc := ⟨.hbm, 53, rfl⟩
abbrev main_cst_15 : Ref sig .tc := ⟨.hbm, 54, rfl⟩
abbrev main_v27 : Ref sig .tc := ⟨.hbm, 55, rfl⟩
abbrev main_v28 : Ref sig .tc := ⟨.hbm, 56, rfl⟩
abbrev main_cst_16 : Ref sig .tc := ⟨.hbm, 57, rfl⟩
abbrev main_v29 : Ref sig .tc := ⟨.hbm, 58, rfl⟩
abbrev main_v30 : Ref sig .tc := ⟨.hbm, 59, rfl⟩
abbrev main_cst_17 : Ref sig .tc := ⟨.hbm, 60, rfl⟩
abbrev main_cst_18 : Ref sig .tc := ⟨.hbm, 61, rfl⟩
abbrev main_call5_v0 : Ref sig .tc := ⟨.hbm, 62, rfl⟩
abbrev main_call5_v1 : Ref sig .tc := ⟨.hbm, 63, rfl⟩
abbrev main_call5_v2 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_19 : Ref sig .tc := ⟨.hbm, 71, rfl⟩
abbrev main_cst_20 : Ref sig .tc := ⟨.hbm, 72, rfl⟩
abbrev main_call7_v0 : Ref sig .tc := ⟨.hbm, 73, rfl⟩
abbrev main_call7_v1 : Ref sig .tc := ⟨.hbm, 74, rfl⟩
abbrev main_call7_v2 : Ref sig .tc := ⟨.hbm, 75, rfl⟩
abbrev main_call7_v3 : Ref sig .tc := ⟨.hbm, 76, rfl⟩
abbrev main_call7_v4 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_21 : Ref sig .tc := ⟨.hbm, 93, rfl⟩
abbrev main_v52 : Ref sig .tc := ⟨.hbm, 94, rfl⟩
abbrev main_v53 : Ref sig .tc := ⟨.hbm, 95, rfl⟩
abbrev main_cst_22 : Ref sig .tc := ⟨.hbm, 96, rfl⟩
abbrev main_v54 : Ref sig .tc := ⟨.hbm, 97, rfl⟩
abbrev main_cst_23 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_24 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_25 : Ref sig .tc := ⟨.hbm, 113, rfl⟩
abbrev main_v68 : Ref sig .tc := ⟨.hbm, 114, rfl⟩
abbrev main_cst_26 : Ref sig .tc := ⟨.hbm, 115, rfl⟩
abbrev main_v69 : Ref sig .tc := ⟨.hbm, 116, rfl⟩
abbrev main_cst_27 : Ref sig .tc := ⟨.hbm, 117, rfl⟩
abbrev main_v70 : Ref sig .tc := ⟨.hbm, 118, rfl⟩
abbrev main_cst_28 : Ref sig .tc := ⟨.hbm, 119, rfl⟩
abbrev main_v71 : Ref sig .tc := ⟨.hbm, 120, rfl⟩
abbrev main_v72 : Ref sig .tc := ⟨.hbm, 121, rfl⟩
abbrev main_cst_29 : Ref sig .tc := ⟨.hbm, 122, rfl⟩
abbrev main_v73 : Ref sig .tc := ⟨.hbm, 123, rfl⟩
abbrev main_cst_30 : Ref sig .tc := ⟨.hbm, 124, rfl⟩
abbrev main_v74 : Ref sig .tc := ⟨.hbm, 125, rfl⟩
abbrev main_v75 : Ref sig .tc := ⟨.hbm, 126, rfl⟩
abbrev main_cst_31 : Ref sig .tc := ⟨.hbm, 127, rfl⟩
abbrev main_v76 : Ref sig .tc := ⟨.hbm, 128, rfl⟩
abbrev main_v77 : Ref sig .tc := ⟨.hbm, 129, rfl⟩
abbrev main_cst_32 : Ref sig .tc := ⟨.hbm, 130, rfl⟩
abbrev main_cst_33 : Ref sig .tc := ⟨.hbm, 131, rfl⟩
abbrev main_call9_v0 : Ref sig .tc := ⟨.hbm, 132, rfl⟩
abbrev main_call9_v1 : Ref sig .tc := ⟨.hbm, 133, rfl⟩
abbrev main_call9_v2 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_34 : Ref sig .tc := ⟨.hbm, 141, rfl⟩
abbrev main_cst_35 : Ref sig .tc := ⟨.hbm, 142, rfl⟩
abbrev main_call11_v0 : Ref sig .tc := ⟨.hbm, 143, rfl⟩
abbrev main_call11_v1 : Ref sig .tc := ⟨.hbm, 144, rfl⟩
abbrev main_call11_v2 : Ref sig .tc := ⟨.hbm, 145, rfl⟩
abbrev main_call11_v3 : Ref sig .tc := ⟨.hbm, 146, rfl⟩
abbrev main_call11_v4 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_cst_36 : Ref sig .tc := ⟨.hbm, 153, rfl⟩
abbrev main_v89 : Ref sig .tc := ⟨.hbm, 154, rfl⟩
abbrev main_cst_37 : Ref sig .tc := ⟨.hbm, 155, rfl⟩
abbrev main_v90 : Ref sig .tc := ⟨.hbm, 156, rfl⟩
abbrev main_cst_38 : Ref sig .tc := ⟨.hbm, 157, rfl⟩
abbrev main_v91 : Ref sig .tc := ⟨.hbm, 158, rfl⟩
abbrev main_cst_39 : Ref sig .tc := ⟨.hbm, 159, rfl⟩
abbrev main_v92 : Ref sig .tc := ⟨.hbm, 160, rfl⟩
abbrev main_v93 : Ref sig .tc := ⟨.hbm, 161, rfl⟩
abbrev main_cst_40 : Ref sig .tc := ⟨.hbm, 162, rfl⟩
abbrev main_v94 : Ref sig .tc := ⟨.hbm, 163, rfl⟩
abbrev main_cst_41 : Ref sig .tc := ⟨.hbm, 164, rfl⟩
abbrev main_v95 : Ref sig .tc := ⟨.hbm, 165, rfl⟩
abbrev main_v96 : Ref sig .tc := ⟨.hbm, 166, rfl⟩
abbrev main_cst_42 : Ref sig .tc := ⟨.hbm, 167, rfl⟩
abbrev main_v97 : Ref sig .tc := ⟨.hbm, 168, rfl⟩
abbrev main_v98 : Ref sig .tc := ⟨.hbm, 169, rfl⟩
abbrev main_cst_43 : Ref sig .tc := ⟨.hbm, 170, rfl⟩
abbrev main_cst_44 : Ref sig .tc := ⟨.hbm, 171, rfl⟩
abbrev main_call13_v0 : Ref sig .tc := ⟨.hbm, 172, rfl⟩
abbrev main_call13_v1 : Ref sig .tc := ⟨.hbm, 173, rfl⟩
abbrev main_call13_v2 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_cst_45 : Ref sig .tc := ⟨.hbm, 181, rfl⟩
abbrev main_cst_46 : Ref sig .tc := ⟨.hbm, 182, rfl⟩
abbrev main_call15_v0 : Ref sig .tc := ⟨.hbm, 183, rfl⟩
abbrev main_call15_v1 : Ref sig .tc := ⟨.hbm, 184, rfl⟩
abbrev main_call15_v2 : Ref sig .tc := ⟨.hbm, 185, rfl⟩
abbrev main_call15_v3 : Ref sig .tc := ⟨.hbm, 186, rfl⟩
abbrev main_call15_v4 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩

abbrev nD : Nat := 1
abbrev τ : Topo := Topo.v7x

variable {F : FTy → Type} [FloatOps F]

class Facts₀ : Prop where
  reducesTo_S8x1024x1024_S_d0_1_2 : S8x1024x1024.ReducesTo [0, 1, 2] S_
  h_S_ : 0 < S_.numel
  bcast_S_S8x1024x1024 : S_.BroadcastsInDim S8x1024x1024 (![] : Fin 0 → Fin S8x1024x1024.rank)
  reducesTo_S3072x1024_S_d0_1 : S3072x1024.ReducesTo [0, 1] S_
  bcast_S_S3072x1024 : S_.BroadcastsInDim S3072x1024 (![] : Fin 0 → Fin S3072x1024.rank)
  shapeCasts_S8x1024x3072_S8x1024x3x16x64 : S8x1024x3072.ShapeCasts S8x1024x3x16x64
  transposes_S8x1024x3x16x64_S3x8x16x1024x64_2_0_3_1_4 : S8x1024x3x16x64.Transposes [2, 0, 3, 1, 4] S3x8x16x1024x64
  slices_S3x8x16x1024x64_S1x8x16x1024x64_0_0_0_0_0 : S3x8x16x1024x64.Slices ![0, 0, 0, 0, 0] S1x8x16x1024x64
  shapeCasts_S1x8x16x1024x64_S8x16x1024x64 : S1x8x16x1024x64.ShapeCasts S8x16x1024x64
  slices_S3x8x16x1024x64_S1x8x16x1024x64_1_0_0_0_0 : S3x8x16x1024x64.Slices ![1, 0, 0, 0, 0] S1x8x16x1024x64
  slices_S3x8x16x1024x64_S1x8x16x1024x64_2_0_0_0_0 : S3x8x16x1024x64.Slices ![2, 0, 0, 0, 0] S1x8x16x1024x64
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  reducesTo_S1024x1024_S_d0_1 : S1024x1024.ReducesTo [0, 1] S_
  bcast_S_S1024x1024 : S_.BroadcastsInDim S1024x1024 (![] : Fin 0 → Fin S1024x1024.rank)
  dot_S8x1024x1024_S3072x1024_S8x1024x3072_2_1_01_0_n_n_wf : DotDims.WF S8x1024x1024 S3072x1024 S8x1024x3072 [2] [1] [0, 1] [0] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]
  dot_S8x1024x1024_S1024x1024_S8x1024x1024_2_1_01_0_n_n_wf : DotDims.WF S8x1024x1024 S1024x1024 S8x1024x1024 [2] [1] [0, 1] [0] [] []

variable [Facts₀]

def dot_S8x1024x1024_S3072x1024_S8x1024x3072_2_1_01_0_n_n : DotDims S8x1024x1024 S3072x1024 S8x1024x3072 where
  lhsContracting := [2]
  rhsContracting := [1]
  lhsNonContracting := [0, 1]
  rhsNonContracting := [0]
  lhsBatch := []
  rhsBatch := []
  wf := dot_S8x1024x1024_S3072x1024_S8x1024x3072_2_1_01_0_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf
def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf

class Facts : Prop extends Facts₀ where

variable [Facts]
-- ==== Proof.KernelRun.lean ====
/-
  The idealized kernel's run with its result named. @main is three pipelined regions among stretches of host
  operations; every weakly fair execution ends with each unscoped buffer at the contents the fold of the
  segments leaves there, so the result buffer ends at the last stretch's value over region 2's output array
  and the three arguments end as launched.
-/
import proofs.«113644_j47184510714570_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds what the
    segments' fold leaves there and the arguments are as launched. -/
theorem run_result : θ_run defs (onTc (τ := τ) (main (F := F))) ⟨m, fun _ => 0, ρ⟩ (fun r => ∀ c : Dev nD,
      r.2.mem ((c.tc : Thread nD τ).loc main_v101) = W39 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W39 m ρ c b)
    (hfin := fun c s' => by
      iintro ⟨⟨Hh, -⟩, HSI⟩
      unfold StableHlo.held
      imodintro
      iapply (pointsTo_read_all (Pipeline.ucRefs τ sig) (fun b => (((c : Thread nD τ)).1, b)) (W39 m ρ c) s')
      isplitl [Hh] <;> iassumption)
    (hQ := fun s h c =>
      ⟨h c _ (mem_uc main_v101 (by decide)),
       (h c _ (mem_uc main_arg0 (by decide))).trans (W39_main_arg0 m ρ c),
       (h c _ (mem_uc main_arg1 (by decide))).trans (W39_main_arg1 m ρ c),
       (h c _ (mem_uc main_arg2 (by decide))).trans (W39_main_arg2 m ρ c)⟩)

end Cert.KernelIdeal.Run

end
-- ==== Proof.Spec.lean ====
/-
  The two whole-array functions the kernel's three regions compute, over the extended reals.

  `prod a w` is the plain matrix product: entry (p, q) is Σ_k a(p, k) · w(k, q).

  `head q k v` is scaled dot-product attention of one head, q, k, v being [R, D] arrays: with the scores
  s(r, n) = (Σ_e q(r, e) · k(n, e)) · c  for the scale c, the row maximum  μ(r) = max(-∞, max_n s(r, n))  and the
  weights  w(r, n) = exp(s(r, n) − μ(r)),  the entry (r, d) is  Σ_n (w(r, n) / Σ_n' w(r, n')) · v(n, d).
  `attn q k v` does this head by head over [B, H, R, D] arrays.
-/
import Idealize.ShloMosaic.Lib.ValueIdx
import Idealize.ShloMosaic.PureOps.Ideal

noncomputable section

namespace Cert.Spec

open Idealize.ShloMosaic Idealize.ShloMosaic.ValueIdx

/-- The plain matrix product of an [M, K] array with a [K, N] array. -/
def prod {M K N : ℕ} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0) k) * w (ix2 k (i 1))

variable {R D : ℕ}

/-- The score of query row `r` against key row `n`, scaled by `c`. -/
def score (c : EReal) (q k : (⟨2, ![R, D]⟩ : Shape).Idx → EReal) (r n : Fin R) : EReal :=
  (∑ e : Fin D, q (ix2 r e) * k (ix2 n e)) * c

/-- The row maximum of the scores, folded from `ninf` (which is -∞) and taken once more against it. -/
def rowMax (ninf c : EReal) (q k : (⟨2, ![R, D]⟩ : Shape).Idx → EReal) (r : Fin R) : EReal :=
  max ninf ((Finset.univ : Finset (Fin R)).fold max ninf (fun n => score c q k r n))

/-- The unnormalised weight of key row `n` for query row `r`. -/
def weight (ninf c : EReal) (q k : (⟨2, ![R, D]⟩ : Shape).Idx → EReal) (r n : Fin R) : EReal :=
  Ideal.exp (score c q k r n - rowMax ninf c q k r)

/-- One head: the weights normalised along the key axis, applied to the values. -/
def head (ninf c : EReal) (q k v : (⟨2, ![R, D]⟩ : Shape).Idx → EReal) (r : Fin R) (d : Fin D) : EReal :=
  ∑ n : Fin R, Ideal.div (weight ninf c q k r n) (∑ n' : Fin R, weight ninf c q k r n') * v (ix2 n d)

/-- Head (b, h) of a [B, H, R, D] array, as an [R, D] array. -/
def slice {B H : ℕ} (x : (⟨4, ![B, H, R, D]⟩ : Shape).Idx → EReal) (b : Fin B) (h : Fin H) :
    (⟨2, ![R, D]⟩ : Shape).Idx → EReal := fun j => x (ix4 b h (j 0) (j 1))

/-- Attention head by head. -/
def attn {B H : ℕ} (ninf c : EReal) (q k v : (⟨4, ![B, H, R, D]⟩ : Shape).Idx → EReal) :
    (⟨4, ![B, H, R, D]⟩ : Shape).Idx → EReal :=
  fun i => head ninf c (slice q (i 0) (i 1)) (slice k (i 0) (i 1)) (slice v (i 0) (i 1)) (i 2) (i 3)

end Cert.Spec

end
-- ==== Proof.LibPlainDot.lean ====
/-
  A plain matrix product read at an entry, over the extended reals.

  The product of an [M, K] array with a [K, N] array into [M, N] — the left operand's second axis contracted with the
  right operand's first, no batch axes — has at (p, q) the value  Σ_k x(p, k) · w(k, q).  This holds for the device's
  product into the zero accumulator and for the host's product alike: at the ideal instance both are the exact finite
  sum over the contracted coordinate, and the contraction index of a one-axis contraction is that coordinate.
-/
import Idealize.ShloMosaic.Lib.ValueIdx
import Idealize.ShloMosaic.PureOps.Ideal.Laws

namespace Cert.LibPlainDot

open Idealize.ShloMosaic Idealize.ShloMosaic.ValueIdx

variable {M K N : ℕ}

/-- The left operand's row coordinate is the result's row coordinate. -/
theorem lhs_row (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction coordinate. -/
theorem rhs_row (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column coordinate. -/
theorem rhs_col (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- At the k-th contraction coordinate the left operand is read at (p, k). -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => exact lhs_row _ _
  | ⟨1, _⟩ => exact (lhs_col _ _).trans hk

/-- At the k-th contraction coordinate the right operand is read at (k, q). -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact (rhs_row _ _).trans hk
  | ⟨1, _⟩ => exact rhs_col _ _

/-- The device's plain product into the zero accumulator, at (p, q), is Σ_k x(p, k) · w(k, q). -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    matmul (DotDims.plain M K N) prec x w (constant (F := Ideal) ⟨2, ![M, N]⟩ .f32 0x00000000#32) (ix2 p q)
      = ∑ k : Fin K, x (ix2 p k) * w (ix2 k q) := by
  refine (Ideal.matmul_constant_zero_apply (DotDims.plain M K N) prec x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

/-- The host's plain product, at (p, q), is Σ_k x(p, k) · w(k, q). -/
theorem hostDot_apply {φ₁ φ₂ : FTy} (prec : Option ContractPrecision)
    (x : FVec Ideal ⟨2, ![M, K]⟩ φ₁) (w : FVec Ideal ⟨2, ![K, N]⟩ φ₂) (p : Fin M) (q : Fin N) :
    Host.dotGeneral (DotDims.plain M K N) prec x w (ix2 p q) = ∑ k : Fin K, x (ix2 p k) * w (ix2 k q) := by
  refine (Ideal.dotGeneral_apply (DotDims.plain M K N) prec .single x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

end Cert.LibPlainDot
-- ==== Proof.Region0.lean ====
/-
  Region 0 of the idealized kernel is a tiled matrix product. Each grid point (i, j) stages rows 512·i … 512·i+511 of
  the left array and columns 1024·j … 1024·j+1023 of the right array whole along the contracted axis, and writes the
  512 × 1024 tile of their product at block (i, j) of the output. A tile of the product of the whole arrays depends only
  on those rows and columns, the tiles cover the output, so the output array ends at the product of the two arrays the
  region found, whatever those arrays hold.
-/
import proofs.«113644_j47184510714570_1_alg».proof.Proof.Gen.KernelIdeal.Frame
import proofs.«113644_j47184510714570_1_alg».proof.Proof.Spec
import proofs.«113644_j47184510714570_1_alg».proof.Proof.LibPlainDot
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored tile at (p, q): row p of the staged left block against column q of the staged right block. -/
theorem tile_apply (x0 : Vec Ideal S512x1024 .f32) (x1 : Vec Ideal S1024x1024 .f32) (p : Fin 512) (q : Fin 1024) :
    k0_pay1 (F := Ideal) x0 x1 (ix2 p q) = ∑ k : Fin 1024, x0 (ix2 p k) * x1 (ix2 k q) := by
  unfold k0_pay1
  refine (LibPlainDot.matmul_zero_apply (M := 512) (K := 1024) (N := 1024) none _ _ p q).trans ?_
  refine Finset.sum_congr rfl fun k _ => ?_
  show (shapeCast S512x1024 x0 _) (ix2 p k) * (shapeCast S1024x1024 x1 _) (ix2 k q) = _
  rw [shapeCast_self, shapeCast_self]

/-- The index maps over the grid: the left block moves with the output's row block and sits at column block 0, the
    right block sits at row block 0 and moves with the output's column block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 15 ∧ win0_2.index t (1 : Fin 2) ≤ 2 :=
  (by decide +kernel : ∀ t : Fin grid0.N, _)

/-- Every output block is some point's. -/
theorem idx_onto : ∀ (q0 : Fin 16) (q1 : Fin 3), ∃ t : Fin cfg0.N, win0_2.index t = ![q0.val, q1.val] :=
  (by decide +kernel : ∀ (q0 : Fin 16) (q1 : Fin 3), ∃ t : Fin grid0.N, win0_2.index t = ![q0.val, q1.val])

section
variable (V : (c : Dev nD) → (b : Ref sig .tc) → Buf (Elt Ideal) ((c : Thread nD τ).loc b))

/-- What point `t` writes back is block `t` of the product of the two arrays the region found. -/
theorem flushed_eq (c : Dev nD) (t : Fin cfg0.N) :
    (dat0 V c).flushed 2 t = ((cfg0.win 2).blk t).view.read (Elt Ideal) (prod (M := 8192) (K := 1024) (N := 3072) (V c main_v63) (V c main_v64)) := by
  show (cfg0.win 2).cut (grid0.coords t) ((dat0 V c).after 2 t) = _
  rw [after0_2]
  unfold out0_2
  rw [View.canon_unit_zero hz]
  simp only [View.ld_unit_zero (S := S512x1024) hz, View.ld_unit_zero (S := S1024x1024) hz]
  obtain ⟨e0, e1, e2, e3, e4, e5⟩ := idx_facts t
  funext j
  show k0_pay1 (F := Ideal) (iblk0 V c 0 t) (iblk0 V c 1 t) j = prod (V c main_v63) (V c main_v64) (((cfg0.win 2).blk t).view.emb j)
  refine (congrArg (k0_pay1 (F := Ideal) (iblk0 V c 0 t) (iblk0 V c 1 t)) (eq_ix2 (n0 := 512) (n1 := 1024) j)).trans ?_
  refine (tile_apply (iblk0 V c 0 t) (iblk0 V c 1 t) (j 0) (j 1)).trans ?_
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega
  have key : ∀ (A : S8192x1024.Idx → EReal) (B : S1024x3072.Idx → EReal),
      A (((cfg0.win 0).blk t).view.emb (ix2 (j 0) k)) * B (((cfg0.win 1).blk t).view.emb (ix2 k (j 1)))
        = A (ix2 ((((cfg0.win 2).blk t).view.emb j) 0) k) * B (ix2 k ((((cfg0.win 2).blk t).view.emb j) 1)) :=
    fun A B => congrArg₂ (· * ·) (congrArg A h0) (congrArg B h1)
  exact key (V c main_v63) (V c main_v64)

/-- An index of the output array lies in point `t`'s block iff each coordinate lies in the block's range. -/
theorem mem_blk (t : Fin cfg0.N) (i : S8192x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v65).slice (win0_2.rect t)).set ↔ _
  rw [View.set_slice_whole, Rect.mem_set_unit]
  exact Iff.rfl

/-- The tiles cover the output array: the point that covers (r, o) is the one at block (r / 512, o / 1024). -/
theorem cover (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The output array after the region: the product of the two arrays the region found. -/
theorem final (c : Dev nD) :
    (dat0 V c).arrAt 2 cfg0.N = prod (M := 8192) (K := 1024) (N := 3072) (V c main_v63) (V c main_v64) :=
  (dat0 V c).arrAt_eq_of_cover 2 _ (fun t _ => flushed_eq V c t) cover

end

end Cert.KernelIdeal.Region0

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.LibRowReduce.lean ====
/-
  Reductions of a matrix along its rows, read at a row, over the extended reals.

  Reducing an [n, m] matrix over its second axis leaves a vector of length n. Its entry p is the row's fold: for a
  maximum, the fold of max from the initial value over the m entries of row p; for a sum, the initial value plus the sum
  of the m entries of row p. This holds for the device's reductions and for the host's alike, the operand index over
  row p with second coordinate k being (p, k).
-/
import Idealize.ShloMosaic.Lib.ValueIdx
import Idealize.ShloMosaic.PureOps.Ideal.Laws

namespace Cert.LibRowReduce

open Idealize.ShloMosaic Idealize.ShloMosaic.ValueIdx

variable {n m : ℕ}

/-- Over row `p`, the operand index with second coordinate `k` is `(p, k)`. -/
theorem lift_row (h : (⟨2, ![n, m]⟩ : Shape).Reduces [(1 : Fin 2)] ⟨1, ![n]⟩) (p : Fin n) (k : Fin m) :
    h.lift (ix1 p) k = ix2 p k := by
  funext c
  apply Fin.ext
  show h.liftVal (ix1 p) k.val c = (ix2 p k c).val
  unfold Shape.Reduces.liftVal
  match c with
  | ⟨0, _⟩ => rw [dif_neg (by simp), dif_pos (by simp)]
  | ⟨1, _⟩ => rw [dif_pos (by simp)]

/-- The device's row maximum at row `p`: the fold of max from the accumulator's value over the row. -/
theorem multiReduction_max_row {φ : FTy} (src : FVec Ideal ⟨2, ![n, m]⟩ φ) (acc : BitVec φ.bits)
    (h : (⟨2, ![n, m]⟩ : Shape).Reduces [(1 : Fin 2)] ⟨1, ![n]⟩) (hφ : FKind.Formats φ)
    (hacc : acc = FKind.maximumf.neutral φ hφ) (p : Fin n) :
    multiReduction .maximumf [(1 : Fin 2)] ⟨1, ![n]⟩ src acc h hφ hacc (ix1 p)
      = (Finset.univ : Finset (Fin m)).fold max (Ideal.ofBits φ acc) (fun k => src (ix2 p k)) := by
  refine (Ideal.multiReduction_maximumf_single src acc h hφ hacc (ix1 p)).trans ?_
  show (Finset.univ : Finset (Fin m)).fold max (Ideal.ofBits φ acc) (src ∘ h.lift (ix1 p)) = _
  exact congrArg (fun g => (Finset.univ : Finset (Fin m)).fold max (Ideal.ofBits φ acc) g)
    (funext fun k => congrArg src (lift_row h p k))

/-- The device's row sum at row `p`: the sum of the row. -/
theorem multiReduction_add_row {φ : FTy} (src : FVec Ideal ⟨2, ![n, m]⟩ φ) (acc : BitVec φ.bits)
    (h : (⟨2, ![n, m]⟩ : Shape).Reduces [(1 : Fin 2)] ⟨1, ![n]⟩) (hφ : FKind.Formats φ)
    (hacc : acc = FKind.add.neutral φ hφ) (p : Fin n) :
    multiReduction .add [(1 : Fin 2)] ⟨1, ![n]⟩ src acc h hφ hacc (ix1 p) = ∑ k : Fin m, src (ix2 p k) := by
  refine (Ideal.multiReduction_add_single src acc h hφ hacc (ix1 p)).trans ?_
  show ∑ k : Fin m, src (h.lift (ix1 p) k) = _
  exact Finset.sum_congr rfl fun k _ => congrArg src (lift_row h p k)

/-- The host's row reduction by a commutative, associative operation at row `p`: the fold from the initial value. -/
theorem hostReduce_row {α : Type} {u : Shape} (f : α → α → α) [Std.Commutative f] [Std.Associative f]
    (x : (⟨2, ![n, m]⟩ : Shape).Idx → α) (init : u.Idx → α)
    (h' : (⟨2, ![n, m]⟩ : Shape).ReducesTo [(1 : Fin 2)] ⟨1, ![n]⟩)
    (h : (⟨2, ![n, m]⟩ : Shape).Reduces [(1 : Fin 2)] ⟨1, ![n]⟩) (hu : 0 < u.numel) (p : Fin n) :
    Host.reduce f x init h' hu (ix1 p)
      = (Finset.univ : Finset (Fin m)).fold f (init (Shape.Idx.first hu)) (fun k => x (ix2 p k)) := by
  refine (Host.reduce_eq_fold_single f x init h' h hu (ix1 p)).trans ?_
  show (Finset.univ : Finset (Fin m)).fold f (init (Shape.Idx.first hu)) (x ∘ h.lift (ix1 p)) = _
  exact congrArg (fun g => (Finset.univ : Finset (Fin m)).fold f (init (Shape.Idx.first hu)) g)
    (funext fun k => congrArg x (lift_row h p k))

/-- The host's row sum at row `p`: the initial value plus the sum of the row. -/
theorem hostReduceAdd_row {φ : FTy} {u : Shape} (x : FVec Ideal ⟨2, ![n, m]⟩ φ) (init : u.Idx → Ideal φ)
    (h' : (⟨2, ![n, m]⟩ : Shape).ReducesTo [(1 : Fin 2)] ⟨1, ![n]⟩)
    (h : (⟨2, ![n, m]⟩ : Shape).Reduces [(1 : Fin 2)] ⟨1, ![n]⟩) (hu : 0 < u.numel) (p : Fin n) :
    Host.reduceAdd x init h' hu (ix1 p) = init (Shape.Idx.first hu) + ∑ k : Fin m, x (ix2 p k) := by
  refine (Ideal.hostReduceAdd_single h' h x (init (Shape.Idx.first hu)) (ix1 p)).trans ?_
  show init (Shape.Idx.first hu) + ∑ k : Fin m, x (h.lift (ix1 p) k) = _
  exact congrArg (fun s => init (Shape.Idx.first hu) + s) (Finset.sum_congr rfl fun k _ => congrArg x (lift_row h p k))

end Cert.LibRowReduce
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.Head.lean ====
/-
  The body of the attention region, read at an index. One grid point holds one head: the staged query, key and value
  blocks viewed as [1024, 64] matrices Q, K, V. The body computes the scores S = (Q·Kᵀ)/8, the row maxima
  μ = max(-∞, max_n S(·, n)), the exponentials E = exp(S − μ), their row sums Z, the weights P = E / Z and the
  product P·V, each a plain formula of the entries: together, one head of attention.
-/
import proofs.«113644_j47184510714570_1_alg».proof.Proof.Gen.KernelIdeal.Frame
import proofs.«113644_j47184510714570_1_alg».proof.Proof.Spec
import proofs.«113644_j47184510714570_1_alg».proof.Proof.LibPlainDot
import proofs.«113644_j47184510714570_1_alg».proof.Proof.LibDotSingle
import proofs.«113644_j47184510714570_1_alg».proof.Proof.LibRowReduce
import proofs.«113644_j47184510714570_1_alg».proof.Proof.LibKeepdims
import Idealize.ShloMosaic.Lib.Pipeline.Value
import Idealize.ShloMosaic.Lib.ValueIdx

set_option maxRecDepth 16384

noncomputable section

namespace Cert.KernelIdeal.Head

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-- -∞, the value both row maxima start from. -/
abbrev ninf : EReal := Ideal.ofBits .f32 0xFF800000#32
/-- The scale 1/8 = 64^(-1/2). -/
abbrev cs : EReal := Ideal.ofBits .f32 0x3E000000#32

/-! ## The product q·kᵀ: both operands contracted along their second axis -/

theorem dotNT_apply (x w : FVec Ideal S1024x64 .bf16) (r n : Fin 1024) :
    matmul dot_S1024x64_S1024x64_S1024x1024_1_1_0_0_n_n none x w (constant (F := Ideal) S1024x1024 .f32 0x00000000#32) (ix2 r n)
      = ∑ e : Fin 64, x (ix2 r e) * w (ix2 n e) := by
  refine LibDotSingle.matmul_zero_apply dot_S1024x64_S1024x64_S1024x1024_1_1_0_0_n_n 64 rfl rfl none x w (ix2 r n) (fun e => ix2 r e) (fun e => ix2 n e) (fun e => ?_) (fun e => ?_)
  · have hk := contrEquiv1_symm_val dot_S1024x64_S1024x64_S1024x1024_1_1_0_0_n_n 64 rfl rfl e
    funext a; apply Fin.ext
    match a with
    | ⟨0, _⟩ =>
      show (DotDims.lhsIdx dot_S1024x64_S1024x64_S1024x1024_1_1_0_0_n_n (ix2 r n) _ 0).val = r.val
      unfold DotDims.lhsIdx
      rw [dif_neg (show ¬(0 : Fin S1024x64.rank) ∈ dot_S1024x64_S1024x64_S1024x1024_1_1_0_0_n_n.lhsBatch from List.not_mem_nil),
        dif_pos (show (0 : Fin S1024x64.rank) ∈ dot_S1024x64_S1024x64_S1024x1024_1_1_0_0_n_n.lhsNonContracting from List.mem_singleton.mpr rfl)]
      rfl
    | ⟨1, _⟩ => exact (dot_S1024x64_S1024x64_S1024x1024_1_1_0_0_n_n.lhsIdx_val_of_single rfl _ _).trans hk
  · have hk := contrEquiv1_symm_val dot_S1024x64_S1024x64_S1024x1024_1_1_0_0_n_n 64 rfl rfl e
    funext a; apply Fin.ext
    match a with
    | ⟨0, _⟩ =>
      show (DotDims.rhsIdx dot_S1024x64_S1024x64_S1024x1024_1_1_0_0_n_n (ix2 r n) _ 0).val = n.val
      unfold DotDims.rhsIdx
      rw [dif_neg (show ¬(0 : Fin S1024x64.rank) ∈ dot_S1024x64_S1024x64_S1024x1024_1_1_0_0_n_n.rhsBatch from List.not_mem_nil),
        dif_pos (show (0 : Fin S1024x64.rank) ∈ dot_S1024x64_S1024x64_S1024x1024_1_1_0_0_n_n.rhsNonContracting from List.mem_singleton.mpr rfl)]
      rfl
    | ⟨1, _⟩ => exact (dot_S1024x64_S1024x64_S1024x1024_1_1_0_0_n_n.rhsIdx_val_of_single rfl _ _).trans hk

/-! ## The body's vectors, named -/

section Body
variable (x0 x1 x2 : Vec Ideal S1x1x1024x64 .bf16)

/-- The staged query, key and value heads as [1024, 64] matrices. -/
def Qm : FVec Ideal S1024x64 .bf16 := shapeCast S1024x64 x0 Facts₀.shapeCasts_S1x1x1024x64_S1024x64
def Km : FVec Ideal S1024x64 .bf16 := shapeCast S1024x64 x1 Facts₀.shapeCasts_S1x1x1024x64_S1024x64
def Vm : FVec Ideal S1024x64 .bf16 := shapeCast S1024x64 x2 Facts₀.shapeCasts_S1x1x1024x64_S1024x64
/-- The scaled scores. -/
def Sm : FVec Ideal S1024x1024 .f32 :=
  mulf (matmul dot_S1024x64_S1024x64_S1024x1024_1_1_0_0_n_n none (Qm x0) (Km x1) (constant S1024x1024 .f32 0x00000000#32)) (broadcast S1024x1024 (Scalar.ofBits .f32 0x3E000000#32))
/-- The row maxima. -/
def Mm : FVec Ideal S1024 .f32 :=
  maximumf (broadcast S1024 (Scalar.ofBits .f32 0xFF800000#32)) (multiReduction .maximumf [1] S1024 (Sm x0 x1) 0xFF800000#32 Facts₀.reduces_S1024x1024_S1024 (.inl rfl) rfl)
/-- The exponentials of the scores less their row maximum. -/
def Em : FVec Ideal S1024x1024 .f32 :=
  exp (subf (Sm x0 x1) (broadcastTo S1024x1024 (shapeCast S1024x1 (Mm x0 x1) Facts₀.shapeCasts_S1024_S1024x1) Facts₀.broadcasts_S1024x1_S1024x1024))
/-- The row sums of the exponentials. -/
def Zm : FVec Ideal S1024 .f32 :=
  multiReduction .add [1] S1024 (Em x0 x1) 0x00000000#32 Facts₀.reduces_S1024x1024_S1024 (.inl rfl) rfl
/-- The normalised weights. -/
def Pm : FVec Ideal S1024x1024 .f32 :=
  divf (Em x0 x1) (broadcastTo S1024x1024 (shapeCast S1024x1 (Zm x0 x1) Facts₀.shapeCasts_S1024_S1024x1) Facts₀.broadcasts_S1024x1_S1024x1024)
/-- The weights applied to the values. -/
def Om : FVec Ideal S1024x64 .f32 :=
  matmul dot_S1024x1024_S1024x64_S1024x64_1_0_0_1_n_n none (truncf .bf16 (Pm x0 x1) Facts₀.bitsLt_bf16_f32) (Vm x2) (constant S1024x64 .f32 0x00000000#32)

/-- The body's stored value is the last of these, viewed [1, 1, 1024, 64]. -/
theorem pay_eq : k1_pay1 (F := Ideal) x0 x1 x2 = shapeCast S1x1x1024x64 (Om x0 x1 x2) Facts₀.shapeCasts_S1024x64_S1x1x1024x64 := rfl

theorem S_apply (r n : Fin 1024) : Sm x0 x1 (ix2 r n) = score cs (Qm x0) (Km x1) r n := by
  show FloatOps.mulf (matmul dot_S1024x64_S1024x64_S1024x1024_1_1_0_0_n_n none (Qm x0) (Km x1) (constant S1024x1024 .f32 0x00000000#32) (ix2 r n))
    (FloatOps.ofBits (F := Ideal) .f32 0x3E000000#32) = _
  rw [Ideal.ofBits_def, dotNT_apply]
  rfl

theorem M_apply (r : Fin 1024) : Mm x0 x1 (ix1 r) = rowMax ninf cs (Qm x0) (Km x1) r := by
  unfold Mm rowMax
  rw [maximumf_apply, broadcast_apply, Ideal.ofBits_def]
  refine congrArg (max ninf) ?_
  refine (LibRowReduce.multiReduction_max_row (n := 1024) (m := 1024) (Sm x0 x1) _ _ _ _ r).trans ?_
  exact congrArg (fun g => (Finset.univ : Finset (Fin 1024)).fold max ninf g) (funext fun n => S_apply x0 x1 r n)

theorem E_apply (r n : Fin 1024) : Em x0 x1 (ix2 r n) = weight ninf cs (Qm x0) (Km x1) r n := by
  unfold Em weight
  show FloatOps.exp (subf (Sm x0 x1) (broadcastTo S1024x1024 (shapeCast S1024x1 (Mm x0 x1) Facts₀.shapeCasts_S1024_S1024x1) Facts₀.broadcasts_S1024x1_S1024x1024) (ix2 r n)) = _
  rw [Ideal.exp_def, subf_apply, LibKeepdims.column_apply, S_apply, M_apply]

theorem Z_apply (r : Fin 1024) : Zm x0 x1 (ix1 r) = ∑ n : Fin 1024, weight ninf cs (Qm x0) (Km x1) r n := by
  refine (LibRowReduce.multiReduction_add_row (n := 1024) (m := 1024) (Em x0 x1) _ _ _ _ r).trans ?_
  exact Finset.sum_congr rfl fun n _ => E_apply x0 x1 r n

theorem P_apply (r n : Fin 1024) :
    Pm x0 x1 (ix2 r n) = Ideal.div (weight ninf cs (Qm x0) (Km x1) r n) (∑ n' : Fin 1024, weight ninf cs (Qm x0) (Km x1) r n') := by
  unfold Pm
  rw [divf_apply, LibKeepdims.column_apply, E_apply, Z_apply]

theorem O_apply (r : Fin 1024) (d : Fin 64) : Om x0 x1 x2 (ix2 r d) = head ninf cs (Qm x0) (Km x1) (Vm x2) r d := by
  refine (LibPlainDot.matmul_zero_apply (M := 1024) (K := 1024) (N := 64) none _ _ r d).trans ?_
  refine Finset.sum_congr rfl fun n _ => ?_
  rw [truncf_apply, P_apply]

/-- The stored head at (0, 0, r, d): one head of attention over the staged matrices. -/
theorem tile_apply (u0 u1 : Fin 1) (r : Fin 1024) (d : Fin 64) :
    k1_pay1 (F := Ideal) x0 x1 x2 (ix4 u0 u1 r d) = head ninf cs (Qm x0) (Km x1) (Vm x2) r d := by
  rw [pay_eq]
  refine (shapeCast_apply (Om x0 x1 x2) Facts₀.shapeCasts_S1024x64_S1x1x1024x64 (ix4 u0 u1 r d) (ix2 r d) ?_).trans (O_apply x0 x1 x2 r d)
  rw [Shape.rowMajor_val_two, Shape.rowMajor_val_four]
  have h0 : u0.val = 0 := by omega
  have h1 : u1.val = 0 := by omega
  show r.val * 64 + d.val = ((u0.val * 1 + u1.val) * 1024 + r.val) * 64 + d.val
  omega

end Body

end Cert.KernelIdeal.Head

end
-- ==== Proof.Heads.lean ====
/-
  The grid of the attention region: point (b, h) of the 8 × 16 grid stages block (b, h, 0, 0) — a whole head — of each of
  its four arrays, every head is some point's, and a staged [1, 1, 1024, 64] block viewed as a [1024, 64] matrix is that head
  of its array.
-/
import proofs.«113644_j47184510714570_1_alg».proof.Proof.Gen.KernelIdeal.Frame
import proofs.«113644_j47184510714570_1_alg».proof.Proof.Spec
import Idealize.ShloMosaic.Lib.Pipeline.Value
import Idealize.ShloMosaic.Lib.ValueIdx

set_option maxRecDepth 16384

noncomputable section

namespace Cert.KernelIdeal.Heads

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## From heads to the array -/

theorem hz : (![0, 0, 0, 0] : Fin 4 → Nat) = fun _ => 0 := funext fun a => by fin_cases a <;> rfl

/-- The index maps over the grid: each of the four windows sits at block (b, h, 0, 0) of its array at point (b, h). -/
theorem idx_facts : ∀ t : Fin cfg1.N,
    win1_0.index t (0 : Fin 4) = win1_3.index t (0 : Fin 4) ∧ win1_0.index t (1 : Fin 4) = win1_3.index t (1 : Fin 4)
    ∧ win1_0.index t (2 : Fin 4) = 0 ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (2 : Fin 4) = 0 ∧ win1_3.index t (3 : Fin 4) = 0
    ∧ win1_3.index t (0 : Fin 4) ≤ 7 ∧ win1_3.index t (1 : Fin 4) ≤ 15 :=
  (by decide +kernel : ∀ t : Fin grid1.N, _)

/-- Every head is some point's. -/
theorem idx_onto : ∀ (q0 : Fin 8) (q1 : Fin 16), ∃ t : Fin cfg1.N, win1_3.index t = ![q0.val, q1.val, 0, 0] :=
  (by decide +kernel : ∀ (q0 : Fin 8) (q1 : Fin 16), ∃ t : Fin grid1.N, win1_3.index t = ![q0.val, q1.val, 0, 0])

/-- A staged [1, 1, 1024, 64] block — the array read through an embedding that puts block coordinate (b, h, 0, 0) in front of
    the coordinates inside the block — viewed as a [1024, 64] matrix is head (b, h) of the array. -/
theorem staged_eq (A : S8x16x1024x64.Idx → EReal) (hc : S1x1x1024x64.ShapeCasts S1024x64) (ix : Fin 4 → Nat)
    (emb : S1x1x1024x64.Idx → S8x16x1024x64.Idx)
    (hemb : ∀ (y : S1x1x1024x64.Idx) (a : Fin 4), (emb y a).val = ix a * S1x1x1024x64.size a + 1 * (y a).val)
    (b : Fin 8) (h : Fin 16) (h0 : ix 0 = b.val) (h1 : ix 1 = h.val) (h2 : ix 2 = 0) (h3 : ix 3 = 0) :
    shapeCast S1024x64 (fun y => A (emb y)) hc = slice A b h := by
  funext y
  refine (shapeCast_apply (fun y => A (emb y)) hc y (ix4 (0 : Fin 1) (0 : Fin 1) (y 0) (y 1)) ?_).trans ?_
  · rw [Shape.rowMajor_val_two, Shape.rowMajor_val_four]
    show ((0 * 1 + 0) * 1024 + (y 0).val) * 64 + (y 1).val = (y 0).val * 64 + (y 1).val
    omega
  · show A (emb (ix4 (0 : Fin 1) (0 : Fin 1) (y 0) (y 1))) = A (ix4 b h (y 0) (y 1))
    refine congrArg A (funext fun a => Fin.ext ?_)
    rw [hemb]
    match a with
    | ⟨0, _⟩ => show ix 0 * 1 + 1 * 0 = b.val; omega
    | ⟨1, _⟩ => show ix 1 * 1 + 1 * 0 = h.val; omega
    | ⟨2, _⟩ => show ix 2 * 1024 + 1 * (y 0).val = (y 0).val; omega
    | ⟨3, _⟩ => show ix 3 * 64 + 1 * (y 1).val = (y 1).val; omega

end Cert.KernelIdeal.Heads

end
-- ==== Proof.Region1.lean ====
/-
  Region 1 of the idealized kernel, as one function of the arrays it finds. Point (b, h) of the 8 × 16 grid stages head (b, h)
  of the query, key and value arrays and writes head (b, h) of the output with one head of attention over them; a head of
  the whole-array attention depends on that head of the three arrays only, and the heads cover the output array. So the
  output array ends at the attention of the three arrays, whatever they hold.
-/
import proofs.«113644_j47184510714570_1_alg».proof.Proof.Head
import proofs.«113644_j47184510714570_1_alg».proof.Proof.Heads

set_option maxRecDepth 16384

noncomputable section

namespace Cert.KernelIdeal.Region1

open Cert.KernelIdeal Cert.KernelIdeal.Gen Cert.Spec Cert.KernelIdeal.Head Cert.KernelIdeal.Heads
open Idealize.ShloMosaic Idealize.ShloMosaic.TcCoe Idealize.ShloMosaic.ValueIdx Idealize.SL.Sem
open Idealize.ShloMosaic.Pipeline (Dat Cfg Window)

section
variable (V : (c : Dev nD) → (b : Ref sig .tc) → Buf (Elt Ideal) ((c : Thread nD τ).loc b))

/-- What point `t` writes back is block `t` of the attention of the three arrays the region found. -/
theorem flushed_eq (c : Dev nD) (t : Fin cfg1.N) :
    (dat1 V c).flushed 3 t = ((cfg1.win 3).blk t).view.read (Elt Ideal)
      (attn (B := 8) (H := 16) (R := 1024) (D := 64) ninf cs (V c main_v69) (V c main_v71) (V c main_v73)) := by
  show (cfg1.win 3).cut (grid1.coords t) ((dat1 V c).after 3 t) = _
  rw [after1_3]
  unfold out1_3
  rw [View.canon_unit_zero hz]
  simp only [View.ld_unit_zero (S := S1x1x1024x64) hz]
  obtain ⟨a0, a1, a2, a3, b0, b1, b2, b3, c0, c1, c2, c3, o2, o3, o0, o1⟩ := idx_facts t
  funext j
  have hj0 : (j 0).val = 0 := by have h : (j 0).val < 1 := (j 0).isLt; omega
  have hj1 : (j 1).val = 0 := by have h : (j 1).val < 1 := (j 1).isLt; omega
  -- the output block's position in its array
  have e0 : ((((cfg1.win 3).blk t).view.emb j) 0).val = win1_3.index t (0 : Fin 4) := by
    show win1_3.index t (0 : Fin 4) * 1 + 1 * (j 0).val = _; omega
  have e1 : ((((cfg1.win 3).blk t).view.emb j) 1).val = win1_3.index t (1 : Fin 4) := by
    show win1_3.index t (1 : Fin 4) * 1 + 1 * (j 1).val = _; omega
  have e2 : (((cfg1.win 3).blk t).view.emb j) 2 = j 2 := Fin.ext (by
    show win1_3.index t (2 : Fin 4) * 1024 + 1 * (j 2).val = _; omega)
  have e3 : (((cfg1.win 3).blk t).view.emb j) 3 = j 3 := Fin.ext (by
    show win1_3.index t (3 : Fin 4) * 64 + 1 * (j 3).val = _; omega)
  -- the three staged blocks, as matrices, are that head of their arrays
  have hq := staged_eq (V c main_v69) Facts₀.shapeCasts_S1x1x1024x64_S1024x64 (win1_0.index t) (((cfg1.win 0).blk t).view.emb)
    (fun y a => rfl) ((((cfg1.win 3).blk t).view.emb j) 0) ((((cfg1.win 3).blk t).view.emb j) 1)
    (a0.trans e0.symm) (a1.trans e1.symm) a2 a3
  have hk := staged_eq (V c main_v71) Facts₀.shapeCasts_S1x1x1024x64_S1024x64 (win1_1.index t) (((cfg1.win 1).blk t).view.emb)
    (fun y a => rfl) ((((cfg1.win 3).blk t).view.emb j) 0) ((((cfg1.win 3).blk t).view.emb j) 1)
    (b0.trans e0.symm) (b1.trans e1.symm) b2 b3
  have hv := staged_eq (V c main_v73) Facts₀.shapeCasts_S1x1x1024x64_S1024x64 (win1_2.index t) (((cfg1.win 2).blk t).view.emb)
    (fun y a => rfl) ((((cfg1.win 3).blk t).view.emb j) 0) ((((cfg1.win 3).blk t).view.emb j) 1)
    (c0.trans e0.symm) (c1.trans e1.symm) c2 c3
  show k1_pay1 (F := Ideal) (iblk1 V c 0 t) (iblk1 V c 1 t) (iblk1 V c 2 t) j
    = head ninf cs (slice (V c main_v69) ((((cfg1.win 3).blk t).view.emb j) 0) ((((cfg1.win 3).blk t).view.emb j) 1))
        (slice (V c main_v71) ((((cfg1.win 3).blk t).view.emb j) 0) ((((cfg1.win 3).blk t).view.emb j) 1))
        (slice (V c main_v73) ((((cfg1.win 3).blk t).view.emb j) 0) ((((cfg1.win 3).blk t).view.emb j) 1))
        ((((cfg1.win 3).blk t).view.emb j) 2) ((((cfg1.win 3).blk t).view.emb j) 3)
  rw [e2, e3, ← hq, ← hk, ← hv]
  refine (congrArg (k1_pay1 (F := Ideal) (iblk1 V c 0 t) (iblk1 V c 1 t) (iblk1 V c 2 t))
    (eq_ix4 (n0 := 1) (n1 := 1) (n2 := 1024) (n3 := 64) j)).trans ?_
  exact tile_apply (iblk1 V c 0 t) (iblk1 V c 1 t) (iblk1 V c 2 t) (j 0) (j 1) (j 2) (j 3)

/-- An index of the output array lies in point `t`'s block iff each coordinate lies in the block's range. -/
theorem mem_blk (t : Fin cfg1.N) (i : S8x16x1024x64.Idx) :
    i ∈ ((cfg1.win 3).blk t).view.set ↔ ∀ a : Fin 4, win1_3.index t a * S1x1x1024x64.size a ≤ (i a).val ∧ (i a).val < win1_3.index t a * S1x1x1024x64.size a + S1x1x1024x64.size a := by
  show i ∈ ((View.whole main_v74).slice (win1_3.rect t)).set ↔ _
  rw [View.set_slice_whole, Rect.mem_set_unit]
  exact Iff.rfl

/-- The heads cover the output array: (b, h, r, d) is in the block of the point at head (b, h). -/
theorem cover (i : S8x16x1024x64.Idx) : ∃ t : Fin cfg1.N, (cfg1.win 3).flush t = true ∧ i ∈ ((cfg1.win 3).blk t).view.set := by
  have hi0 : (i 0).val < 8 := (i 0).isLt
  have hi1 : (i 1).val < 16 := (i 1).isLt
  have hi2 : (i 2).val < 1024 := (i 2).isLt
  have hi3 : (i 3).val < 64 := (i 3).isLt
  obtain ⟨t, ht⟩ := idx_onto ⟨(i 0).val, hi0⟩ ⟨(i 1).val, hi1⟩
  have q0 : win1_3.index t (0 : Fin 4) = (i 0).val := congrFun ht 0
  have q1 : win1_3.index t (1 : Fin 4) = (i 1).val := congrFun ht 1
  have q2 : win1_3.index t (2 : Fin 4) = 0 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 1024 ≤ (i 2).val ∧ (i 2).val < win1_3.index t (2 : Fin 4) * 1024 + 1024; omega
  | ⟨3, _⟩ => show win1_3.index t (3 : Fin 4) * 64 ≤ (i 3).val ∧ (i 3).val < win1_3.index t (3 : Fin 4) * 64 + 64; omega

/-- The output array after the region: the attention of the three arrays the region found. -/
theorem final (c : Dev nD) :
    (dat1 V c).arrAt 3 cfg1.N
      = attn (B := 8) (H := 16) (R := 1024) (D := 64) ninf cs (V c main_v69) (V c main_v71) (V c main_v73) :=
  (dat1 V c).arrAt_eq_of_cover 3 _ (fun t _ => flushed_eq V c t) cover

end

end Cert.KernelIdeal.Region1

end
-- ==== Proof.Region2.lean ====
/-
  Region 2 of the idealized kernel is a tiled matrix product. Each grid point (i, j) stages rows 512·i … 512·i+511 of
  the left array and columns 1024·j … 1024·j+1023 of the right array whole along the contracted axis, and writes the
  512 × 1024 tile of their product at block (i, j) of the output. A tile of the product of the whole arrays depends only
  on those rows and columns, the tiles cover the output, so the output array ends at the product of the two arrays the
  region found, whatever those arrays hold.
-/
import proofs.«113644_j47184510714570_1_alg».proof.Proof.Gen.KernelIdeal.Frame
import proofs.«113644_j47184510714570_1_alg».proof.Proof.Spec
import proofs.«113644_j47184510714570_1_alg».proof.Proof.LibPlainDot
import Idealize.ShloMosaic.Lib.Pipeline.Value
import Idealize.ShloMosaic.Lib.ValueIdx

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored tile at (p, q): row p of the staged left block against column q of the staged right block. -/
theorem tile_apply (x0 : Vec Ideal S512x1024 .f32) (x1 : Vec Ideal S1024x1024 .f32) (p : Fin 512) (q : Fin 1024) :
    k2_pay1 (F := Ideal) x0 x1 (ix2 p q) = ∑ k : Fin 1024, x0 (ix2 p k) * x1 (ix2 k q) := by
  unfold k2_pay1
  refine (LibPlainDot.matmul_zero_apply (M := 512) (K := 1024) (N := 1024) none _ _ p q).trans ?_
  refine Finset.sum_congr rfl fun k _ => ?_
  show (shapeCast S512x1024 x0 _) (ix2 p k) * (shapeCast S1024x1024 x1 _) (ix2 k q) = _
  rw [shapeCast_self, shapeCast_self]

/-- The index maps over the grid: the left block moves with the output's row block and sits at column block 0, the
    right block sits at row block 0 and moves with the output's column block. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 15 ∧ win2_2.index t (1 : Fin 2) ≤ 0 :=
  (by decide +kernel : ∀ t : Fin grid2.N, _)

/-- Every output block is some point's. -/
theorem idx_onto : ∀ (q0 : Fin 16) (q1 : Fin 1), ∃ t : Fin cfg2.N, win2_2.index t = ![q0.val, q1.val] :=
  (by decide +kernel : ∀ (q0 : Fin 16) (q1 : Fin 1), ∃ t : Fin grid2.N, win2_2.index t = ![q0.val, q1.val])

section
variable (V : (c : Dev nD) → (b : Ref sig .tc) → Buf (Elt Ideal) ((c : Thread nD τ).loc b))

/-- What point `t` writes back is block `t` of the product of the two arrays the region found. -/
theorem flushed_eq (c : Dev nD) (t : Fin cfg2.N) :
    (dat2 V c).flushed 2 t = ((cfg2.win 2).blk t).view.read (Elt Ideal) (prod (M := 8192) (K := 1024) (N := 1024) (V c main_v98) (V c main_v99)) := by
  show (cfg2.win 2).cut (grid2.coords t) ((dat2 V c).after 2 t) = _
  rw [after2_2]
  unfold out2_2
  rw [View.canon_unit_zero hz]
  simp only [View.ld_unit_zero (S := S512x1024) hz, View.ld_unit_zero (S := S1024x1024) hz]
  obtain ⟨e0, e1, e2, e3, e4, e5⟩ := idx_facts t
  funext j
  show k2_pay1 (F := Ideal) (iblk2 V c 0 t) (iblk2 V c 1 t) j = prod (V c main_v98) (V c main_v99) (((cfg2.win 2).blk t).view.emb j)
  refine (congrArg (k2_pay1 (F := Ideal) (iblk2 V c 0 t) (iblk2 V c 1 t)) (eq_ix2 (n0 := 512) (n1 := 1024) j)).trans ?_
  refine (tile_apply (iblk2 V c 0 t) (iblk2 V c 1 t) (j 0) (j 1)).trans ?_
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 512 + 1 * (j 0).val = win2_2.index t (0 : Fin 2) * 512 + 1 * (j 0).val; omega
    | ⟨1, _⟩ => show win2_0.index t (1 : Fin 2) * 1024 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 1024 + 1 * k.val = k.val; omega
    | ⟨1, _⟩ => show win2_1.index t (1 : Fin 2) * 1024 + 1 * (j 1).val = win2_2.index t (1 : Fin 2) * 1024 + 1 * (j 1).val; omega
  have key : ∀ (A : S8192x1024.Idx → EReal) (B : S1024x1024.Idx → EReal),
      A (((cfg2.win 0).blk t).view.emb (ix2 (j 0) k)) * B (((cfg2.win 1).blk t).view.emb (ix2 k (j 1)))
        = A (ix2 ((((cfg2.win 2).blk t).view.emb j) 0) k) * B (ix2 k ((((cfg2.win 2).blk t).view.emb j) 1)) :=
    fun A B => congrArg₂ (· * ·) (congrArg A h0) (congrArg B h1)
  exact key (V c main_v98) (V c main_v99)

/-- An index of the output array lies in point `t`'s block iff each coordinate lies in the block's range. -/
theorem mem_blk (t : Fin cfg2.N) (i : S8192x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v100).slice (win2_2.rect t)).set ↔ _
  rw [View.set_slice_whole, Rect.mem_set_unit]
  exact Iff.rfl

/-- The tiles cover the output array: the point that covers (r, o) is the one at block (r / 512, o / 1024). -/
theorem cover (i : S8192x1024.Idx) : ∃ t : Fin cfg2.N, (cfg2.win 2).flush t = true ∧ i ∈ ((cfg2.win 2).blk t).view.set := by
  have hi0 : (i 0).val < 8192 := (i 0).isLt
  have hi1 : (i 1).val < 1024 := (i 1).isLt
  obtain ⟨t, ht⟩ := idx_onto ⟨(i 0).val / 512, by omega⟩ ⟨(i 1).val / 1024, by omega⟩
  have q0 : win2_2.index t (0 : Fin 2) = (i 0).val / 512 := congrFun ht 0
  have q1 : win2_2.index t (1 : Fin 2) = (i 1).val / 1024 := congrFun ht 1
  refine ⟨t, flush2_2 t, ?_⟩
  rw [mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The output array after the region: the product of the two arrays the region found. -/
theorem final (c : Dev nD) :
    (dat2 V c).arrAt 2 cfg2.N = prod (M := 8192) (K := 1024) (N := 1024) (V c main_v98) (V c main_v99) :=
  (dat2 V c).arrAt_eq_of_cover 2 _ (fun t _ => flushed_eq V c t) cover

end

end Cert.KernelIdeal.Region2

end
-- ==== Proof.Bridge.lean ====
/-
  The two places where the kernel and the reference arrange one computation differently.

  The kernel multiplies matrices: the [8, 1024, 1024] activations flattened to [8192, 1024] against the weight transposed.
  The reference contracts the activations' last axis with the weight's second axis directly. Both have at
  (8192-row p, column q) the sum Σ_c y0(p / 1024, p % 1024, c) · y1(q, c): flattening is the identity on row-major
  positions and the transpose swaps the weight's coordinates.
-/
import proofs.«113644_j47184510714570_1_alg».proof.Proof.RefRead
import proofs.«113644_j47184510714570_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Bridge

open Cert.ReferenceIdeal Cert.ReferenceIdeal.Gen Cert.ReferenceIdeal.ReadP Cert.Spec
open Idealize.ShloMosaic Idealize.ShloMosaic.TcCoe Idealize.ShloMosaic.ValueIdx Idealize.SL.Sem

/-- Two reshapes in a row are one. -/
theorem shapeCast_shapeCast_of {s t u : Shape} {α : Type} (v : s.Idx → α) (h : s.ShapeCasts t) (h' : t.ShapeCasts u)
    (h'' : s.ShapeCasts u) : shapeCast u (shapeCast t v h) h' = shapeCast u v h'' :=
  funext fun i => congrArg v (Shape.reshapeEquiv_reshapeEquiv _ _ i)

/-- The reference's projection to queries, keys and values, read at an index: a sum over the contracted coordinate. -/
theorem qkv_dot_apply (y0 : FVec Ideal S8x1024x1024 .f32) (y1 : FVec Ideal S3072x1024 .f32) (i : S8x1024x3072.Idx) :
    Host.dotGeneral (F := Ideal) dot_S8x1024x1024_S3072x1024_S8x1024x3072_2_1_01_0_n_n none y0 y1 i
      = ∑ k : Fin 1024, y0 (lidx_main_v42 i k) * y1 (ridx_main_v42 i k) := by
  simp only [Host.dotGeneral]
  rw [Ideal.dotGeneral_apply, ← Equiv.sum_comp (ValueIdx.contrEquiv1 dot_S8x1024x1024_S3072x1024_S8x1024x3072_2_1_01_0_n_n 1024 rfl rfl).symm]
  refine Finset.sum_congr rfl fun k _ => ?_
  have hk := ValueIdx.contrEquiv1_symm_val dot_S8x1024x1024_S3072x1024_S8x1024x3072_2_1_01_0_n_n 1024 rfl rfl k
  have el : dot_S8x1024x1024_S3072x1024_S8x1024x3072_2_1_01_0_n_n.lhsIdx i ((ValueIdx.contrEquiv1 dot_S8x1024x1024_S3072x1024_S8x1024x3072_2_1_01_0_n_n 1024 rfl rfl).symm k) = lidx_main_v42 i k := funext fun a => Fin.ext (by
    match a with
    | ⟨0, _⟩ => exact lhs_main_v42_0 _ _
    | ⟨1, _⟩ => exact lhs_main_v42_1 _ _
    | ⟨2, _⟩ => exact (lhs_main_v42_2 _ _).trans hk)
  have er : dot_S8x1024x1024_S3072x1024_S8x1024x3072_2_1_01_0_n_n.rhsIdx i ((ValueIdx.contrEquiv1 dot_S8x1024x1024_S3072x1024_S8x1024x3072_2_1_01_0_n_n 1024 rfl rfl).symm k) = ridx_main_v42 i k := funext fun a => Fin.ext (by
    match a with
    | ⟨0, _⟩ => exact rhs_main_v42_0 _ _
    | ⟨1, _⟩ => exact (rhs_main_v42_1 _ _).trans hk)
  rw [el, er]

/-- The tiled product of the activations flattened to [8192, 1024] with the transposed weight is the host's contraction of
    the [8, 1024, 1024] activations with the weight's second axis, flattened to [8192, 3072]: entry (p, q) of either is
    Σ_c y0(p / 1024, p % 1024, c) · y1(q, c). -/
theorem qkv_bridge (y0 : FVec Ideal S8x1024x1024 .f32) (y1 : FVec Ideal S3072x1024 .f32)
    (h1 : S8x1024x1024.ShapeCasts ⟨2, ![8192, 1024]⟩) (h2 : S3072x1024.Transposes [1, 0] ⟨2, ![1024, 3072]⟩)
    (h3 : S8x1024x3072.ShapeCasts ⟨2, ![8192, 3072]⟩) :
    prod (M := 8192) (K := 1024) (N := 3072) (shapeCast ⟨2, ![8192, 1024]⟩ y0 h1) (transpose ⟨2, ![1024, 3072]⟩ [1, 0] y1 h2)
      = shapeCast ⟨2, ![8192, 3072]⟩ (Host.dotGeneral (F := Ideal) dot_S8x1024x1024_S3072x1024_S8x1024x3072_2_1_01_0_n_n none y0 y1) h3 := by
  funext j
  obtain ⟨p, q, rfl⟩ : ∃ (p : Fin 8192) (q : Fin 3072), j = ix2 p q := ⟨j 0, j 1, eq_ix2 j⟩
  have hp := p.isLt
  have hq := q.isLt
  refine Eq.trans ?_ (shapeCast_apply (Host.dotGeneral (F := Ideal) dot_S8x1024x1024_S3072x1024_S8x1024x3072_2_1_01_0_n_n none y0 y1) h3 (ix2 p q)
    (ix3 (⟨p.val / 1024, by omega⟩ : Fin 8) (⟨p.val % 1024, by omega⟩ : Fin 1024) q) (by
      rw [Shape.rowMajor_val_three, Shape.rowMajor_val_two]
      show (p.val / 1024 * 1024 + p.val % 1024) * 3072 + q.val = p.val * 3072 + q.val
      omega)).symm
  rw [qkv_dot_apply]
  refine Finset.sum_congr rfl fun k _ => ?_
  have hk := k.isLt
  refine congrArg₂ (· * ·) ?_ ?_
  · refine shapeCast_apply y0 h1 (ix2 p k) _ ?_
    rw [Shape.rowMajor_val_three, Shape.rowMajor_val_two]
    show (p.val / 1024 * 1024 + p.val % 1024) * 1024 + k.val = p.val * 1024 + k.val
    omega
  · refine transpose_apply [1, 0] y1 h2 (ix2 k q) _ fun b => ?_
    match b with
    | ⟨0, _⟩ => rfl
    | ⟨1, _⟩ => rfl

/-- The reference's output projection, read at an index: a sum over the contracted coordinate. -/
theorem proj_dot_apply (y0 : FVec Ideal S8x1024x1024 .f32) (y1 : FVec Ideal S1024x1024 .f32) (i : S8x1024x1024.Idx) :
    Host.dotGeneral (F := Ideal) dot_S8x1024x1024_S1024x1024_S8x1024x1024_2_1_01_0_n_n none y0 y1 i
      = ∑ k : Fin 1024, y0 (lidx_main_v110 i k) * y1 (ridx_main_v110 i k) := by
  simp only [Host.dotGeneral]
  rw [Ideal.dotGeneral_apply, ← Equiv.sum_comp (ValueIdx.contrEquiv1 dot_S8x1024x1024_S1024x1024_S8x1024x1024_2_1_01_0_n_n 1024 rfl rfl).symm]
  refine Finset.sum_congr rfl fun k _ => ?_
  have hk := ValueIdx.contrEquiv1_symm_val dot_S8x1024x1024_S1024x1024_S8x1024x1024_2_1_01_0_n_n 1024 rfl rfl k
  have el : dot_S8x1024x1024_S1024x1024_S8x1024x1024_2_1_01_0_n_n.lhsIdx i ((ValueIdx.contrEquiv1 dot_S8x1024x1024_S1024x1024_S8x1024x1024_2_1_01_0_n_n 1024 rfl rfl).symm k) = lidx_main_v110 i k := funext fun a => Fin.ext (by
    match a with
    | ⟨0, _⟩ => exact lhs_main_v110_0 _ _
    | ⟨1, _⟩ => exact lhs_main_v110_1 _ _
    | ⟨2, _⟩ => exact (lhs_main_v110_2 _ _).trans hk)
  have er : dot_S8x1024x1024_S1024x1024_S8x1024x1024_2_1_01_0_n_n.rhsIdx i ((ValueIdx.contrEquiv1 dot_S8x1024x1024_S1024x1024_S8x1024x1024_2_1_01_0_n_n 1024 rfl rfl).symm k) = ridx_main_v110 i k := funext fun a => Fin.ext (by
    match a with
    | ⟨0, _⟩ => exact rhs_main_v110_0 _ _
    | ⟨1, _⟩ => exact (rhs_main_v110_1 _ _).trans hk)
  rw [el, er]

/-- The tiled product of the activations flattened to [8192, 1024] with the transposed weight is the host's contraction of
    the [8, 1024, 1024] activations with the weight's second axis, flattened to [8192, 1024]: entry (p, q) of either is
    Σ_c y0(p / 1024, p % 1024, c) · y1(q, c). -/
theorem proj_bridge (y0 : FVec Ideal S8x1024x1024 .f32) (y1 : FVec Ideal S1024x1024 .f32)
    (h1 : S8x1024x1024.ShapeCasts ⟨2, ![8192, 1024]⟩) (h2 : S1024x1024.Transposes [1, 0] ⟨2, ![1024, 1024]⟩)
    (h3 : S8x1024x1024.ShapeCasts ⟨2, ![8192, 1024]⟩) :
    prod (M := 8192) (K := 1024) (N := 1024) (shapeCast ⟨2, ![8192, 1024]⟩ y0 h1) (transpose ⟨2, ![1024, 1024]⟩ [1, 0] y1 h2)
      = shapeCast ⟨2, ![8192, 1024]⟩ (Host.dotGeneral (F := Ideal) dot_S8x1024x1024_S1024x1024_S8x1024x1024_2_1_01_0_n_n none y0 y1) h3 := by
  funext j
  obtain ⟨p, q, rfl⟩ : ∃ (p : Fin 8192) (q : Fin 1024), j = ix2 p q := ⟨j 0, j 1, eq_ix2 j⟩
  have hp := p.isLt
  have hq := q.isLt
  refine Eq.trans ?_ (shapeCast_apply (Host.dotGeneral (F := Ideal) dot_S8x1024x1024_S1024x1024_S8x1024x1024_2_1_01_0_n_n none y0 y1) h3 (ix2 p q)
    (ix3 (⟨p.val / 1024, by omega⟩ : Fin 8) (⟨p.val % 1024, by omega⟩ : Fin 1024) q) (by
      rw [Shape.rowMajor_val_three, Shape.rowMajor_val_two]
      show (p.val / 1024 * 1024 + p.val % 1024) * 1024 + q.val = p.val * 1024 + q.val
      omega)).symm
  rw [proj_dot_apply]
  refine Finset.sum_congr rfl fun k _ => ?_
  have hk := k.isLt
  refine congrArg₂ (· * ·) ?_ ?_
  · refine shapeCast_apply y0 h1 (ix2 p k) _ ?_
    rw [Shape.rowMajor_val_three, Shape.rowMajor_val_two]
    show (p.val / 1024 * 1024 + p.val % 1024) * 1024 + k.val = p.val * 1024 + k.val
    omega
  · refine transpose_apply [1, 0] y1 h2 (ix2 k q) _ fun b => ?_
    match b with
    | ⟨0, _⟩ => rfl
    | ⟨1, _⟩ => rfl

end Cert.Bridge

end
-- ==== Proof.AttnRef.lean ====
/-
  The reference's attention, stage by stage, is `Spec.attn` of its query, key and value arrays.

  At head (b, h), query row r and key row n the reference's scaled score is the head's score; its row maximum — a fold of max
  over the last axis from -∞, then once more against -∞ — is the head's row maximum; the exponential of the difference is the
  weight; the sum over the last axis from 0 is the sum of the weights; the quotient is the normalised weight; and the last
  contraction over the key axis applies the weights to the values.
-/
import proofs.«113644_j47184510714570_1_alg».proof.Proof.RefRead
import proofs.«113644_j47184510714570_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.AttnRef

open Cert.ReferenceIdeal Cert.ReferenceIdeal.Gen Cert.ReferenceIdeal.ReadP Cert.Spec
open Idealize.ShloMosaic Idealize.ShloMosaic.TcCoe Idealize.ShloMosaic.ValueIdx Idealize.SL.Sem

/-- -∞, the value both row maxima start from. -/
abbrev ninf : EReal := Ideal.ofBits .f32 0xFF800000#32
/-- The scale 1/8 = 64^(-1/2). -/
abbrev cs : EReal := Ideal.ofBits .f32 0x3E000000#32

/-! ## The stages' index maps at coordinates -/

section Indices
variable (b : Fin 8) (h : Fin 16) (r n : Fin 1024) (d e : Fin 64)

theorem lidx51 : lidx_main_v51 (ix4 b h r n) e = ix4 b h r e :=
  funext fun a => by match a with | ⟨0, _⟩ => rfl | ⟨1, _⟩ => rfl | ⟨2, _⟩ => rfl | ⟨3, _⟩ => rfl
theorem ridx51 : ridx_main_v51 (ix4 b h r n) e = ix4 b h n e :=
  funext fun a => by match a with | ⟨0, _⟩ => rfl | ⟨1, _⟩ => rfl | ⟨2, _⟩ => rfl | ⟨3, _⟩ => rfl
theorem idx57_58 : idx_main_v57 (idx_main_v58 (ix4 b h r n)) = ix3 b h r :=
  funext fun a => by match a with | ⟨0, _⟩ => rfl | ⟨1, _⟩ => rfl | ⟨2, _⟩ => rfl
theorem idx62_63 : idx_main_v62 (idx_main_v63 (ix4 b h r n)) = ix3 b h r :=
  funext fun a => by match a with | ⟨0, _⟩ => rfl | ⟨1, _⟩ => rfl | ⟨2, _⟩ => rfl
theorem idx61 : idx_main_v61 (ix3 b h r) n = ix4 b h r n :=
  funext fun a => by match a with | ⟨0, _⟩ => rfl | ⟨1, _⟩ => rfl | ⟨2, _⟩ => rfl | ⟨3, _⟩ => rfl
theorem lidx65 : lidx_main_v65 (ix4 b h r d) n = ix4 b h r n :=
  funext fun a => by match a with | ⟨0, _⟩ => rfl | ⟨1, _⟩ => rfl | ⟨2, _⟩ => rfl | ⟨3, _⟩ => rfl
theorem ridx65 : ridx_main_v65 (ix4 b h r d) n = ix4 b h n d :=
  funext fun a => by match a with | ⟨0, _⟩ => rfl | ⟨1, _⟩ => rfl | ⟨2, _⟩ => rfl | ⟨3, _⟩ => rfl

/-- The host's maximum over the last axis of an [8, 16, 1024, 1024] array, at (b, h, r): the fold of max from the initial
    value over the entries (b, h, r, k). -/
theorem hostMax_last (y : FVec Ideal S8x16x1024x1024 .f32) (init : FVec Ideal S_ .f32) :
    Host.reduce (FloatOps.maximumf (F := Ideal) (φ := .f32)) y init reducesTo_S8x16x1024x1024_S8x16x1024_d3 h_S_ (ix3 b h r)
      = (Finset.univ : Finset (Fin 1024)).fold max (init (Shape.Idx.first h_S_)) (fun k => y (ix4 b h r k)) := by
  refine (Host.reduce_eq_fold_single (FloatOps.maximumf (F := Ideal) (φ := .f32)) y init
    reducesTo_S8x16x1024x1024_S8x16x1024_d3 (by decide) h_S_ (ix3 b h r)).trans ?_
  refine congrArg (fun g => (Finset.univ : Finset (Fin 1024)).fold max (init (Shape.Idx.first h_S_)) g) (funext fun k => ?_)
  exact congrArg y (funext fun a => Fin.ext (by match a with | ⟨0, _⟩ => rfl | ⟨1, _⟩ => rfl | ⟨2, _⟩ => rfl | ⟨3, _⟩ => rfl))

end Indices

/-! ## The stages -/

section Stages
variable (x0 : (⟨S8x1024x1024, .f32⟩ : BufTy).Contents (Elt Ideal)) (x1 : (⟨S3072x1024, .f32⟩ : BufTy).Contents (Elt Ideal))
variable (b : Fin 8) (h : Fin 16) (r n : Fin 1024)

/-- The reference's query, key and value arrays. -/
abbrev Qa : S8x16x1024x64.Idx → EReal := val_main_v46 (F := Ideal) x0 x1
abbrev Ka : S8x16x1024x64.Idx → EReal := val_main_v48 (F := Ideal) x0 x1
abbrev Va : S8x16x1024x64.Idx → EReal := val_main_v50 (F := Ideal) x0 x1

theorem s_ref : val_main_v53 (F := Ideal) x0 x1 (ix4 b h r n) = score cs (slice (Qa x0 x1) b h) (slice (Ka x0 x1) b h) r n := by
  rw [val_main_v53_apply, val_main_v51_apply, val_main_v52_apply, val_main_cst_21_apply, Ideal.ofBits_def, Ideal.mulf_def]
  simp only [lidx51, ridx51]
  rfl

theorem m_ref : val_main_v56 (F := Ideal) x0 x1 (ix3 b h r) = rowMax ninf cs (slice (Qa x0 x1) b h) (slice (Ka x0 x1) b h) r := by
  unfold rowMax
  rw [val_main_v56_apply, val_main_v55_apply, val_main_cst_23_apply, Ideal.ofBits_def, Ideal.maximumf_def]
  refine congrArg (max ninf) ?_
  unfold val_main_v54
  rw [hostMax_last, val_main_cst_22_apply, Ideal.ofBits_def]
  exact congrArg (fun g => (Finset.univ : Finset (Fin 1024)).fold max ninf g) (funext fun k => s_ref x0 x1 b h r k)

theorem e_ref : val_main_v60 (F := Ideal) x0 x1 (ix4 b h r n) = weight ninf cs (slice (Qa x0 x1) b h) (slice (Ka x0 x1) b h) r n := by
  rw [val_main_v60_apply, val_main_v59_apply, val_main_v58_apply, val_main_v57_apply, idx57_58, m_ref, s_ref,
    Ideal.hostUnary_exp_def, Ideal.subf_def]
  rfl

theorem z_ref : val_main_v61 (F := Ideal) x0 x1 (ix3 b h r)
    = ∑ n' : Fin 1024, weight ninf cs (slice (Qa x0 x1) b h) (slice (Ka x0 x1) b h) r n' := by
  rw [val_main_v61_apply, val_main_cst_24_apply, Ideal.ofBits_def, Ideal.ofBits_zero_f32, zero_add]
  refine Finset.sum_congr rfl fun k _ => ?_
  rw [idx61]
  exact e_ref x0 x1 b h r k

theorem p_ref : val_main_v64 (F := Ideal) x0 x1 (ix4 b h r n)
    = Ideal.div (weight ninf cs (slice (Qa x0 x1) b h) (slice (Ka x0 x1) b h) r n)
        (∑ n' : Fin 1024, weight ninf cs (slice (Qa x0 x1) b h) (slice (Ka x0 x1) b h) r n') := by
  rw [val_main_v64_apply, val_main_v63_apply, val_main_v62_apply, idx62_63, e_ref, z_ref, Ideal.hostDivf_def]

/-- The reference's attention output is `Spec.attn` of its query, key and value arrays. -/
theorem attn_ref : val_main_v65 (F := Ideal) x0 x1 = attn ninf cs (Qa x0 x1) (Ka x0 x1) (Va x0 x1) := by
  funext i
  obtain ⟨b, h, r, d, rfl⟩ : ∃ (b : Fin 8) (h : Fin 16) (r : Fin 1024) (d : Fin 64), i = ix4 b h r d :=
    ⟨i 0, i 1, i 2, i 3, eq_ix4 i⟩
  rw [val_main_v65_apply]
  show _ = ∑ n : Fin 1024, Ideal.div (weight ninf cs (slice (Qa x0 x1) b h) (slice (Ka x0 x1) b h) r n)
      (∑ n' : Fin 1024, weight ninf cs (slice (Qa x0 x1) b h) (slice (Ka x0 x1) b h) r n') * Va x0 x1 (ix4 b h n d)
  refine Finset.sum_congr rfl fun k _ => ?_
  rw [lidx65, ridx65, p_ref]

end Stages

end Cert.AttnRef

end
-- ==== Proof.Fold.lean ====
/-
  The idealized kernel's result, read back through @main's segments, is the reference's result term of the same arguments.

  Both programs quantize the activations and the two weights with one and the same host code, so every stretch of host
  operations of the kernel is, operation for operation, a stretch of the reference. The three regions are where they differ
  in form only: region 0 and region 2 are tiled matrix products of flattened activations with a transposed weight, which are
  the reference's contractions flattened; region 1 is attention head by head, which is the reference's batched attention.
  Stage by stage the kernel's buffers are therefore the reference's stages, and the result buffer ends at the reference's
  result term.
-/
import proofs.«113644_j47184510714570_1_alg».proof.Proof.Region0
import proofs.«113644_j47184510714570_1_alg».proof.Proof.Region1
import proofs.«113644_j47184510714570_1_alg».proof.Proof.Region2
import proofs.«113644_j47184510714570_1_alg».proof.Proof.Bridge
import proofs.«113644_j47184510714570_1_alg».proof.Proof.AttnRef
import Idealize.ShloMosaic.Lib.StableHlo.Run

set_option maxRecDepth 16384

noncomputable section

namespace Cert.KernelIdeal.Fold

open Cert.KernelIdeal Cert.KernelIdeal.Gen Cert.Spec
open Cert.ReferenceIdeal.ReadP (val_main_v20 val_main_v41 val_main_v109 val_main_v42 val_main_v46 val_main_v48 val_main_v50 val_main_v65 val_main_v88 val_main_v110)
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0's operands: the quantized activations flattened, the quantized QKV weight transposed -/

set_option maxHeartbeats 4000000 in
theorem entry0_x : W25 m ρ c (Proc.devRef .tc main_v63)
    = shapeCast S8192x1024 (val_main_v20 (F := Ideal) (m ((c : Thread nD τ).loc main_arg0))) Facts₀.shapeCasts_S8x1024x1024_S8192x1024 := by
  after_results_simp
  rfl

set_option maxHeartbeats 4000000 in
theorem entry0_w : W25 m ρ c (Proc.devRef .tc main_v64)
    = transpose S1024x3072 [1, 0] (val_main_v41 (F := Ideal) (m ((c : Thread nD τ).loc main_arg1))) Facts₀.transposes_S3072x1024_S1024x3072_1_0 := by
  after_results_simp
  rfl

set_option maxHeartbeats 4000000 in
/-- The quantized output weight is computed before region 0 and kept until region 2's entry. -/
theorem kept_wproj : W25 m ρ c (Proc.devRef .tc main_v62) = val_main_v109 (F := Ideal) (m ((c : Thread nD τ).loc main_arg2)) := by
  after_results_simp
  rfl

/-! ## Region 0's output: the reference's QKV contraction, flattened -/

/-- [8, 1024, 3072] and [8192, 3072] have the same number of entries. -/
theorem hflat : Cert.ReferenceIdeal.S8x1024x3072.ShapeCasts S8192x3072 := by decide
/-- [8, 1024, 1024] and [8192, 1024] have the same number of entries. -/
theorem hflat' : Cert.ReferenceIdeal.S8x1024x1024.ShapeCasts S8192x1024 := by decide

theorem out0 : W26 m ρ c (Proc.devRef .tc main_v65)
    = shapeCast S8192x3072 (val_main_v42 (F := Ideal) (m ((c : Thread nD τ).loc main_arg0)) (m ((c : Thread nD τ).loc main_arg1))) hflat := by
  refine (W26_arr m ρ c 2).trans ((Region0.final (V25 m ρ) c).trans ?_)
  show prod (W25 m ρ c (Proc.devRef .tc main_v63)) (W25 m ρ c (Proc.devRef .tc main_v64)) = _
  rw [entry0_x, entry0_w]
  exact Bridge.qkv_bridge _ _ _ _ _

/-! ## Region 1's operands: the reference's query, key and value arrays -/

set_option maxHeartbeats 4000000 in
theorem entry1_q : W27 m ρ c (Proc.devRef .tc main_v69) = val_main_v46 (F := Ideal) (m ((c : Thread nD τ).loc main_arg0)) (m ((c : Thread nD τ).loc main_arg1)) := by
  after_results_simp
  rw [out0]
  show shapeCast S8x16x1024x64 (extractStridedSlice S1x8x16x1024x64 ![0, 0, 0, 0, 0] (transpose S3x8x16x1024x64 [2, 0, 3, 1, 4]
    (shapeCast S8x1024x3x16x64 (shapeCast S8192x3072 (val_main_v42 (F := Ideal) (m ((c : Thread nD τ).loc main_arg0)) (m ((c : Thread nD τ).loc main_arg1))) hflat)
      Facts₀.shapeCasts_S8192x3072_S8x1024x3x16x64) Facts₀.transposes_S8x1024x3x16x64_S3x8x16x1024x64_2_0_3_1_4)
    Facts₀.slices_S3x8x16x1024x64_S1x8x16x1024x64_0_0_0_0_0) Facts₀.shapeCasts_S1x8x16x1024x64_S8x16x1024x64 = _
  rw [Bridge.shapeCast_shapeCast_of _ hflat Facts₀.shapeCasts_S8192x3072_S8x1024x3x16x64 (by decide)]
  rfl

set_option maxHeartbeats 4000000 in
theorem entry1_k : W27 m ρ c (Proc.devRef .tc main_v71) = val_main_v48 (F := Ideal) (m ((c : Thread nD τ).loc main_arg0)) (m ((c : Thread nD τ).loc main_arg1)) := by
  after_results_simp
  rw [out0]
  show shapeCast S8x16x1024x64 (extractStridedSlice S1x8x16x1024x64 ![1, 0, 0, 0, 0] (transpose S3x8x16x1024x64 [2, 0, 3, 1, 4]
    (shapeCast S8x1024x3x16x64 (shapeCast S8192x3072 (val_main_v42 (F := Ideal) (m ((c : Thread nD τ).loc main_arg0)) (m ((c : Thread nD τ).loc main_arg1))) hflat)
      Facts₀.shapeCasts_S8192x3072_S8x1024x3x16x64) Facts₀.transposes_S8x1024x3x16x64_S3x8x16x1024x64_2_0_3_1_4)
    Facts₀.slices_S3x8x16x1024x64_S1x8x16x1024x64_1_0_0_0_0) Facts₀.shapeCasts_S1x8x16x1024x64_S8x16x1024x64 = _
  rw [Bridge.shapeCast_shapeCast_of _ hflat Facts₀.shapeCasts_S8192x3072_S8x1024x3x16x64 (by decide)]
  rfl

set_option maxHeartbeats 4000000 in
theorem entry1_v : W27 m ρ c (Proc.devRef .tc main_v73) = val_main_v50 (F := Ideal) (m ((c : Thread nD τ).loc main_arg0)) (m ((c : Thread nD τ).loc main_arg1)) := by
  after_results_simp
  rw [out0]
  show shapeCast S8x16x1024x64 (extractStridedSlice S1x8x16x1024x64 ![2, 0, 0, 0, 0] (transpose S3x8x16x1024x64 [2, 0, 3, 1, 4]
    (shapeCast S8x1024x3x16x64 (shapeCast S8192x3072 (val_main_v42 (F := Ideal) (m ((c : Thread nD τ).loc main_arg0)) (m ((c : Thread nD τ).loc main_arg1))) hflat)
      Facts₀.shapeCasts_S8192x3072_S8x1024x3x16x64) Facts₀.transposes_S8x1024x3x16x64_S3x8x16x1024x64_2_0_3_1_4)
    Facts₀.slices_S3x8x16x1024x64_S1x8x16x1024x64_2_0_0_0_0) Facts₀.shapeCasts_S1x8x16x1024x64_S8x16x1024x64 = _
  rw [Bridge.shapeCast_shapeCast_of _ hflat Facts₀.shapeCasts_S8192x3072_S8x1024x3x16x64 (by decide)]
  rfl

/-! ## Region 1's output: the reference's attention -/

theorem out1 : W28 m ρ c (Proc.devRef .tc main_v74) = val_main_v65 (F := Ideal) (m ((c : Thread nD τ).loc main_arg0)) (m ((c : Thread nD τ).loc main_arg1)) := by
  refine (W28_arr m ρ c 3).trans ((Region1.final (V27 m ρ) c).trans ?_)
  show attn Head.ninf Head.cs (W27 m ρ c (Proc.devRef .tc main_v69)) (W27 m ρ c (Proc.devRef .tc main_v71))
    (W27 m ρ c (Proc.devRef .tc main_v73)) = _
  rw [entry1_q, entry1_k, entry1_v]
  exact (AttnRef.attn_ref (m ((c : Thread nD τ).loc main_arg0)) (m ((c : Thread nD τ).loc main_arg1))).symm

/-! ## Region 2's operands: the quantized attention output flattened, the quantized output weight transposed -/

set_option maxHeartbeats 4000000 in
theorem entry2_x : W37 m ρ c (Proc.devRef .tc main_v98)
    = shapeCast S8192x1024 (val_main_v88 (F := Ideal) (m ((c : Thread nD τ).loc main_arg0)) (m ((c : Thread nD τ).loc main_arg1))) Facts₀.shapeCasts_S8x1024x1024_S8192x1024 := by
  after_results_simp
  rw [out1]
  rfl

set_option maxHeartbeats 4000000 in
theorem entry2_w : W37 m ρ c (Proc.devRef .tc main_v99)
    = transpose S1024x1024 [1, 0] (val_main_v109 (F := Ideal) (m ((c : Thread nD τ).loc main_arg2))) Facts₀.transposes_S1024x1024_S1024x1024_1_0 := by
  after_results_simp
  rw [W28_of_ne m ρ c main_v62 (by decide)]
  after_results_simp
  rw [W26_of_ne m ρ c main_v62 (by decide), kept_wproj]

/-! ## Region 2's output and the result -/

theorem out2 : W38 m ρ c (Proc.devRef .tc main_v100)
    = shapeCast S8192x1024 (val_main_v110 (F := Ideal) (m ((c : Thread nD τ).loc main_arg0)) (m ((c : Thread nD τ).loc main_arg1)) (m ((c : Thread nD τ).loc main_arg2))) hflat' := by
  refine (W38_arr m ρ c 2).trans ((Region2.final (V37 m ρ) c).trans ?_)
  show prod (W37 m ρ c (Proc.devRef .tc main_v98)) (W37 m ρ c (Proc.devRef .tc main_v99)) = _
  rw [entry2_x, entry2_w]
  exact Bridge.proj_bridge _ _ _ _ _

/-- The result buffer ends at the reference's result term of the kernel's own arguments. -/
theorem result : W39 m ρ c (Proc.devRef .tc main_v101) = val_main_v110 (F := Ideal) (m ((c : Thread nD τ).loc main_arg0)) (m ((c : Thread nD τ).loc main_arg1)) (m ((c : Thread nD τ).loc main_arg2)) := by
  after_results_simp
  rw [out2]
  exact shapeCast_shapeCast _ _ _

end Cert.KernelIdeal.Fold

end
-- ==== Proof.lean ====
/-
  Quantized multi-head attention: the tiled kernel against its plain reference, over the extended reals.

  Both programs fake-quantize the activations x : [8, 1024, 1024] and the weights w_qkv : [3072, 1024], w_proj : [1024, 1024]
  per tensor (minimum and maximum, a scale and a zero point, round, clip, and back), project x to queries, keys and values,
  split them into 16 heads of width 64, take softmax(q·kᵀ / 8)·v head by head, put the heads back side by side, quantize
  again and project with w_proj. The kernel does the three matrix stages in three pipelined regions — a tiled product of the
  flattened activations with the transposed weight, attention one head per grid point, and another tiled product — with the
  same host operations in between as the reference has.

  Read at the exact instance a change of float format is the identity and every sum is an exact finite sum, so a tile of a
  product is a tile of the whole product, a head of attention is a head of the batched attention, and flattening
  [8, 1024, ·] to [8192, ·] only renames indices. Hence the kernel's result array is, entry by entry, the reference's result
  term of the same arguments (`Fold.result`), which is what the reference's run leaves in its result (`val_main_v110_eq`).
  The equality needs no finiteness of the inputs: no law beyond the rearrangement of finite sums is used. The kernel's
  idealization rewrote nothing, so there is nothing to preserve beyond the programs' own text.
-/
import proofs.«113644_j47184510714570_1_alg».proof.Defs
import proofs.«113644_j47184510714570_1_alg».proof.Proof.Gen.Kernel
import proofs.«113644_j47184510714570_1_alg».proof.Proof.Gen.Kernel.Skeleton
import proofs.«113644_j47184510714570_1_alg».proof.Proof.Gen.Kernel.Launch
import proofs.«113644_j47184510714570_1_alg».proof.Proof.Gen.Kernel.Points
import proofs.«113644_j47184510714570_1_alg».proof.Proof.Gen.Kernel.Frame
import proofs.«113644_j47184510714570_1_alg».proof.Proof.Gen.KernelIdeal
import proofs.«113644_j47184510714570_1_alg».proof.Proof.Gen.KernelIdeal.Skeleton
import proofs.«113644_j47184510714570_1_alg».proof.Proof.Gen.KernelIdeal.Launch
import proofs.«113644_j47184510714570_1_alg».proof.Proof.Gen.KernelIdeal.Points
import proofs.«113644_j47184510714570_1_alg».proof.Proof.Gen.KernelIdeal.Frame
import proofs.«113644_j47184510714570_1_alg».proof.Proof.Gen.ReferenceIdeal
import proofs.«113644_j47184510714570_1_alg».proof.Proof.Gen.Pre_finite_inputs
import proofs.«113644_j47184510714570_1_alg».proof.Proof.KernelRun
import proofs.«113644_j47184510714570_1_alg».proof.Proof.RefRun
import proofs.«113644_j47184510714570_1_alg».proof.Proof.RefRead
import proofs.«113644_j47184510714570_1_alg».proof.Proof.Fold
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the three arguments both idealized programs end with the reference's result term of those
    arguments in their result. -/
theorem algebraic : Cert.algebraic_KernelIdeal_ReferenceIdeal := by
  intro m ρ m' ρ' _ hagree
  refine ⟨fun c => Cert.ReferenceIdeal.ReadP.val_main_v110 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Fold.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v110_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
